-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x40 : Shape := ⟨2, ![50000, 40]⟩
abbrev S5000x40 : Shape := ⟨2, ![5000, 40]⟩
abbrev S650000x40 : Shape := ⟨2, ![650000, 40]⟩
abbrev S1x40 : Shape := ⟨2, ![1, 40]⟩

abbrev nBuf : Space → Nat
  | .hbm => 161
  | .vmem => 31
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S128, .f32⟩
  | 9 => ⟨S128, .f32⟩
  | 10 => ⟨S128, .f32⟩
  | 11 => ⟨S128, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000, .f32⟩
  | 54 => ⟨S650000, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S128, .f32⟩
  | 93 => ⟨S1x128, .f32⟩
  | 94 => ⟨S1x128, .f32⟩
  | 95 => ⟨S1x128, .f32⟩
  | 96 => ⟨S1x128, .f32⟩
  | 97 => ⟨S50000x128, .f32⟩
  | 98 => ⟨S50000x128, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000x128, .f32⟩
  | 108 => ⟨S650000x1, .f32⟩
  | 109 => ⟨S650000x128, .f32⟩
  | 110 => ⟨S650000x128, .f32⟩
  | 111 => ⟨S_, .f32⟩
  | 112 => ⟨S50000x128, .f32⟩
  | 113 => ⟨S650000x1, .i32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .f32⟩
  | 5 => ⟨S128, .f32⟩
  | 6 => ⟨S128, .f32⟩
  | 7 => ⟨S128, .f32⟩
  | 8 => ⟨S1x128, .f32⟩
  | 9 => ⟨S1x128, .f32⟩
  | 10 => ⟨S1x128, .f32⟩
  | 11 => ⟨S1x128, .f32⟩
  | 12 => ⟨S50000x128, .f32⟩
  | 13 => ⟨S50000x40, .f32⟩
  | 14 => ⟨S_, .i32⟩
  | 15 => ⟨S650000, .i32⟩
  | 16 => ⟨S650000, .i1⟩
  | 17 => ⟨S_, .i32⟩
  | 18 => ⟨S650000, .i32⟩
  | 19 => ⟨S650000, .i32⟩
  | 20 => ⟨S650000, .i32⟩
  | 21 => ⟨S650000x1, .i32⟩
  | 22 => ⟨S650000x40, .f32⟩
  | 23 => ⟨S650000x1, .f32⟩
  | 24 => ⟨S650000x40, .f32⟩
  | 25 => ⟨S650000x40, .f32⟩
  | 26 => ⟨S_, .f32⟩
  | 27 => ⟨S50000x40, .f32⟩
  | 28 => ⟨S650000x1, .i32⟩
  | 29 => ⟨S50000x40, .f32⟩
  | 30 => ⟨S1x40, .f32⟩
  | 31 => ⟨S50000x40, .f32⟩
  | 32 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x40, .f32⟩
  | .local _ .vmem, ⟨29, _⟩ => ⟨S5000x40, .f32⟩
  | .local _ .vmem, ⟨30, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_cst_21 : Ref sig .tc := ⟨.hbm, 129, rfl⟩
abbrev main_v92 : Ref sig .tc := ⟨.hbm, 130, rfl⟩
abbrev main_v93 : Ref sig .tc := ⟨.hbm, 131, rfl⟩
abbrev main_cst_22 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_23 : Ref sig .tc := ⟨.hbm, 142, rfl⟩
abbrev main_v103 : Ref sig .tc := ⟨.hbm, 143, rfl⟩
abbrev main_v104 : Ref sig .tc := ⟨.hbm, 144, rfl⟩
abbrev main_c_24 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_25 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x40_S5000x40_1_0_0_1_n_n_wf : DotDims.WF S5000x128 S128x40 S5000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v99) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v100) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v101) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v101) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x40 : Shape := ⟨2, ![50000, 40]⟩
abbrev S650000x40 : Shape := ⟨2, ![650000, 40]⟩
abbrev S1x40 : Shape := ⟨2, ![1, 40]⟩

abbrev nBuf : Space → Nat
  | .hbm => 181
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S128, .f32⟩
  | 9 => ⟨S128, .f32⟩
  | 10 => ⟨S128, .f32⟩
  | 11 => ⟨S128, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000, .f32⟩
  | 54 => ⟨S650000, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x1, .f32⟩
  | 119 => ⟨S650000x128, .f32⟩
  | 120 => ⟨S650000x128, .f32⟩
  | 121 => ⟨S_, .f32⟩
  | 122 => ⟨S50000x128, .f32⟩
  | 123 => ⟨S650000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x40, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000x40, .f32⟩
  | 43 => ⟨S650000x1, .f32⟩
  | 44 => ⟨S650000x40, .f32⟩
  | 45 => ⟨S650000x40, .f32⟩
  | 46 => ⟨S_, .f32⟩
  | 47 => ⟨S50000x40, .f32⟩
  | 48 => ⟨S650000x1, .i32⟩
  | 49 => ⟨S50000x40, .f32⟩
  | 50 => ⟨S1x40, .f32⟩
  | 51 => ⟨S50000x40, .f32⟩
  | 52 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_22 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_call2_cst : Ref sig .tc := ⟨.hbm, 158, rfl⟩
abbrev main_call2_v0 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_c_24 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_25 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S650000x1_S650000x40_0_1 : S650000x1.BroadcastsInDim S650000x40 (![0, 1] : Fin 2 → Fin S650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x40_S50000x40_1_0_0_1_n_n_wf : DotDims.WF S50000x128 S128x40 S50000x40 [1] [0] [0] [1] [] []
  gather_S50000x40_S650000x1_S650000x40_1_0_n_n_0_1_140_wf : GatherDims.WF S50000x40 S650000x1 S650000x40 [1] [0] [] [0] [] 1 ![1, 40]
  scatter_S50000x40_S650000x1_S650000x40_1_0_0_1_wf : ScatterDims.WF S50000x40 S650000x1 S650000x40 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S650000x1_S650000x40_1_0_n_n_0_1_140 : GatherDims S50000x40 S650000x1 S650000x40 where
  offsetDims := [1]
  collapsedSliceDims := [0]
  operandBatchingDims := []
  startIndicesBatchingDims := []
  startIndexMap := [0]
  indexVectorDim := 1
  sliceSizes := ![1, 40]
  wf := gather_S50000x40_S650000x1_S650000x40_1_0_n_n_0_1_140_wf
def scatter_S50000x40_S650000x1_S650000x40_1_0_0_1 : ScatterDims S50000x40 S650000x1 S650000x40 where
  updateWindowDims := [1]
  insertedWindowDims := [0]
  scatterDimsToOperandDims := [0]
  indexVectorDim := 1
  wf := scatter_S50000x40_S650000x1_S650000x40_1_0_0_1_wf

class Facts : Prop extends Facts₀ where

variable [Facts]
-- ==== Proof.KernelRun.lean ====
/-
  The idealized kernel's run with its result named. The program is five kernel launches among stretches of host
  operations; its run is the fold of the buffer contents through those eleven segments, and after the last one every
  buffer of a core holds the fold's value there. Read at the result's buffer this gives the result as the last
  boundary's contents; read at the twelve arguments it gives them back as launched.
-/
import proofs.«162351_j36601711296804_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the value of
    the fold of the segments at that buffer, and each argument array is as launched. -/
theorem run_result : θ_run defs (onTc (τ := τ) (main (F := F))) ⟨m, fun _ => 0, ρ⟩ (fun r => ∀ c : Dev nD,
      r.2.mem ((c.tc : Thread nD τ).loc main_v118) = W11 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v118 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Hand

end
-- ==== Proof.RefFrame.lean ====
/-
  The reference's run, read at the buffers the claims speak of: every weakly fair execution terminates; the result
  buffer holds the fold of the 169 operations at that buffer, and each argument array, which no operation writes, is
  as launched.
-/
import proofs.«162351_j36601711296804_1_alg».proof.Proof.RefOps
import Idealize.ShloMosaic.PureOps.Ideal

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.RunP

variable (m : (ℓ : Loc nD τ sig) → Buf (Elt Ideal) ℓ) (ρ : Dev nD → PrngReg)

set_option maxHeartbeats 4000000 in
/-- No operation writes argument 0. -/
theorem kept0 (c : Dev nD) : after (ops (F := Ideal)) (launchContents m c) (Proc.devRef .tc main_arg0) = m ((c.tc : Thread nD τ).loc main_arg0) := by
  after_results_simp <;> rfl
set_option maxHeartbeats 4000000 in
/-- No operation writes argument 1. -/
theorem kept1 (c : Dev nD) : after (ops (F := Ideal)) (launchContents m c) (Proc.devRef .tc main_arg1) = m ((c.tc : Thread nD τ).loc main_arg1) := by
  after_results_simp <;> rfl
set_option maxHeartbeats 4000000 in
/-- No operation writes argument 2. -/
theorem kept2 (c : Dev nD) : after (ops (F := Ideal)) (launchContents m c) (Proc.devRef .tc main_arg2) = m ((c.tc : Thread nD τ).loc main_arg2) := by
  after_results_simp <;> rfl
set_option maxHeartbeats 4000000 in
/-- No operation writes argument 3. -/
theorem kept3 (c : Dev nD) : after (ops (F := Ideal)) (launchContents m c) (Proc.devRef .tc main_arg3) = m ((c.tc : Thread nD τ).loc main_arg3) := by
  after_results_simp <;> rfl
set_option maxHeartbeats 4000000 in
/-- No operation writes argument 4. -/
theorem kept4 (c : Dev nD) : after (ops (F := Ideal)) (launchContents m c) (Proc.devRef .tc main_arg4) = m ((c.tc : Thread nD τ).loc main_arg4) := by
  after_results_simp <;> rfl
set_option maxHeartbeats 4000000 in
/-- No operation writes argument 5. -/
theorem kept5 (c : Dev nD) : after (ops (F := Ideal)) (launchContents m c) (Proc.devRef .tc main_arg5) = m ((c.tc : Thread nD τ).loc main_arg5) := by
  after_results_simp <;> rfl
set_option maxHeartbeats 4000000 in
/-- No operation writes argument 6. -/
theorem kept6 (c : Dev nD) : after (ops (F := Ideal)) (launchContents m c) (Proc.devRef .tc main_arg6) = m ((c.tc : Thread nD τ).loc main_arg6) := by
  after_results_simp <;> rfl
set_option maxHeartbeats 4000000 in
/-- No operation writes argument 7. -/
theorem kept7 (c : Dev nD) : after (ops (F := Ideal)) (launchContents m c) (Proc.devRef .tc main_arg7) = m ((c.tc : Thread nD τ).loc main_arg7) := by
  after_results_simp <;> rfl
set_option maxHeartbeats 4000000 in
/-- No operation writes argument 8. -/
theorem kept8 (c : Dev nD) : after (ops (F := Ideal)) (launchContents m c) (Proc.devRef .tc main_arg8) = m ((c.tc : Thread nD τ).loc main_arg8) := by
  after_results_simp <;> rfl
set_option maxHeartbeats 4000000 in
/-- No operation writes argument 9. -/
theorem kept9 (c : Dev nD) : after (ops (F := Ideal)) (launchContents m c) (Proc.devRef .tc main_arg9) = m ((c.tc : Thread nD τ).loc main_arg9) := by
  after_results_simp <;> rfl
set_option maxHeartbeats 4000000 in
/-- No operation writes argument 10. -/
theorem kept10 (c : Dev nD) : after (ops (F := Ideal)) (launchContents m c) (Proc.devRef .tc main_arg10) = m ((c.tc : Thread nD τ).loc main_arg10) := by
  after_results_simp <;> rfl
set_option maxHeartbeats 4000000 in
/-- No operation writes argument 11. -/
theorem kept11 (c : Dev nD) : after (ops (F := Ideal)) (launchContents m c) (Proc.devRef .tc main_arg11) = m ((c.tc : Thread nD τ).loc main_arg11) := by
  after_results_simp <;> rfl

/-- The run: the result at the fold of the operations, the arguments unchanged. -/
theorem run : θ_run defs (onTc (τ := τ) (main (F := Ideal))) ⟨m, fun _ => 0, ρ⟩ fun r => ∀ c : Dev nD,
      r.2.mem ((c.tc : Thread nD τ).loc main_v134) = after (ops (F := Ideal)) (launchContents m c) (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨h c main_v134,
      (h c main_arg0).trans (kept0 m c),
      (h c main_arg1).trans (kept1 m c),
      (h c main_arg2).trans (kept2 m c),
      (h c main_arg3).trans (kept3 m c),
      (h c main_arg4).trans (kept4 m c),
      (h c main_arg5).trans (kept5 m c),
      (h c main_arg6).trans (kept6 m c),
      (h c main_arg7).trans (kept7 m c),
      (h c main_arg8).trans (kept8 m c),
      (h c main_arg9).trans (kept9 m c),
      (h c main_arg10).trans (kept10 m c),
      (h c main_arg11).trans (kept11 m c)⟩)
    (run_fold (F := Ideal) m ρ)

end Cert.ReferenceIdeal.Hand

end
-- ==== Proof.SimBase.lean ====
/-
  The two idealized programs side by side. Both are the same stretches of host operations around three matrix products
  and two normalisations; the kernel's program computes those five by launches, the reference's by host operations.
  This module fixes the points at which the two runs are compared: the reference's operation list cut into the
  stretches that mirror the kernel's segments, and the contents of the reference's buffers after each stretch.
-/
import proofs.«162351_j36601711296804_1_alg».proof.Proof.Gen.KernelIdeal.Frame
import proofs.«162351_j36601711296804_1_alg».proof.Proof.RefOps
import Idealize.ShloMosaic.PureOps.Ideal

set_option maxRecDepth 16384

noncomputable section

open Idealize.ShloMosaic Idealize.ShloMosaic.TcCoe Idealize.SL.Sem Idealize.ShloMosaic.StableHlo

namespace Cert.Sim

/-! Short names for the reference program's vocabulary. -/
namespace R
export Cert.ReferenceIdeal (nD τ sig main_arg0 main_arg1 main_arg2 main_arg3 main_arg4 main_arg5 main_arg6 main_arg7 main_arg8
  main_arg9 main_arg10 main_arg11 main_v0 main_v2 main_v3 main_v5 main_v6 main_v31 main_v32 main_v48 main_v51 main_v61 main_v64
  main_v74 main_v75 main_v91 main_v94 main_v104 main_v107 main_v117 main_v118 main_v134
  S600000 S50000 S650000 S_ S128 S1x128 S50000x128 S50000x40 S128x128 S128x40
  dot_S50000x128_S128x128_S50000x128_1_0_0_1_n_n dot_S50000x128_S128x40_S50000x40_1_0_0_1_n_n)
export Cert.ReferenceIdeal.Gen (bcast_S128_S1x128_1 bcast_S1x128_S50000x128_0_1 bcast_S_S50000x128)
end R

/-- A fold over a list of operations is the fold over its tail after the fold over its head. -/
theorem after_split {τ : Topo} {sig : RefSig} {Val : EltTy → Type} (l : List (HloOp τ sig Val)) (n : Nat) (V : Valuation τ sig Val) :
    after l V = after (l.drop n) (after (l.take n) V) := by
  rw [← StableHlo.after_append, List.take_append_drop]

/-- The reference's 169 operations at the ideal instance. -/
abbrev rops : List (HloOp R.τ R.sig (Elt Ideal)) := Cert.ReferenceIdeal.RunP.ops (F := Ideal)

variable (m' : (ℓ : Loc R.nD R.τ R.sig) → Buf (Elt Ideal) ℓ) (c : Dev R.nD)

/-- The reference's buffers at launch … -/
def U0 : Valuation R.τ R.sig (Elt Ideal) := launchContents m' c
/-- … after the index arithmetic up to the two concatenated index arrays (operations 0–6) … -/
def U7 : Valuation R.τ R.sig (Elt Ideal) := after (rops.take 7) (U0 m' c)
/-- … after the degree normalisation (operations 7–42) … -/
def U43 : Valuation R.τ R.sig (Elt Ideal) := after ((rops.drop 7).take 36) (U7 m' c)
/-- … after the first matrix product (operation 43) … -/
def U44 : Valuation R.τ R.sig (Elt Ideal) := after ((rops.drop 43).take 1) (U43 m' c)
/-- … after the first aggregation and its column statistics (operations 44–83) … -/
def U84 : Valuation R.τ R.sig (Elt Ideal) := after ((rops.drop 44).take 40) (U44 m' c)
/-- … after the first normalisation (operations 84–95) … -/
def U96 : Valuation R.τ R.sig (Elt Ideal) := after ((rops.drop 84).take 12) (U84 m' c)
/-- … after the second matrix product (operation 96) … -/
def U97 : Valuation R.τ R.sig (Elt Ideal) := after ((rops.drop 96).take 1) (U96 m' c)
/-- … after the second aggregation and its column statistics (operations 97–136) … -/
def U137 : Valuation R.τ R.sig (Elt Ideal) := after ((rops.drop 97).take 40) (U97 m' c)
/-- … after the second normalisation (operations 137–148) … -/
def U149 : Valuation R.τ R.sig (Elt Ideal) := after ((rops.drop 137).take 12) (U137 m' c)
/-- … after the third matrix product (operation 149) … -/
def U150 : Valuation R.τ R.sig (Elt Ideal) := after ((rops.drop 149).take 1) (U149 m' c)
/-- … and after the third aggregation (operations 150–168): the end of the run. -/
def U169 : Valuation R.τ R.sig (Elt Ideal) := after (rops.drop 150) (U150 m' c)

/-- The whole fold is the stretches' folds one after the other. -/
theorem after_rops : after rops (launchContents m' c) = U169 m' c := by
  unfold U169 U150 U149 U137 U97 U96 U84 U44 U43 U7 U0
  rw [after_split rops 7, after_split (rops.drop 7) 36, after_split ((rops.drop 7).drop 36) 1,
    after_split (((rops.drop 7).drop 36).drop 1) 40, after_split ((((rops.drop 7).drop 36).drop 1).drop 40) 12,
    after_split (((((rops.drop 7).drop 36).drop 1).drop 40).drop 12) 1,
    after_split ((((((rops.drop 7).drop 36).drop 1).drop 40).drop 12).drop 1) 40,
    after_split (((((((rops.drop 7).drop 36).drop 1).drop 40).drop 12).drop 1).drop 40) 12,
    after_split ((((((((rops.drop 7).drop 36).drop 1).drop 40).drop 12).drop 1).drop 40).drop 12) 1]
  simp only [List.drop_drop]

end Cert.Sim

end
-- ==== Proof.SimInv.lean ====
/-
  What the two runs share at the points where they are compared. The kernel's program and the reference apply the same
  host operations to the same buffers up to renaming; what every later stretch reads and no stretch writes again is
  carried as an invariant: the twelve arguments (`Args`), then also the two index arrays — sources and targets with the
  self loops appended (`Inv7`) — and finally the per-edge normalisation weights as well (`Inv`).
-/
import proofs.«162351_j36601711296804_1_alg».proof.Proof.SimBase

set_option maxRecDepth 16384

noncomputable section

open Idealize.ShloMosaic Idealize.ShloMosaic.TcCoe Idealize.SL.Sem Idealize.ShloMosaic.StableHlo

namespace Cert.Sim

open Cert.KernelIdeal Cert.KernelIdeal.Gen

/-- The twelve arguments hold the same contents on the two sides. -/
structure Args (VK : Valuation τ sig (Elt Ideal)) (VR : Valuation R.τ R.sig (Elt Ideal)) : Prop where
  a0 : VK (Proc.devRef .tc main_arg0) = VR (Proc.devRef .tc R.main_arg0)
  a1 : VK (Proc.devRef .tc main_arg1) = VR (Proc.devRef .tc R.main_arg1)
  a2 : VK (Proc.devRef .tc main_arg2) = VR (Proc.devRef .tc R.main_arg2)
  a3 : VK (Proc.devRef .tc main_arg3) = VR (Proc.devRef .tc R.main_arg3)
  a4 : VK (Proc.devRef .tc main_arg4) = VR (Proc.devRef .tc R.main_arg4)
  a5 : VK (Proc.devRef .tc main_arg5) = VR (Proc.devRef .tc R.main_arg5)
  a6 : VK (Proc.devRef .tc main_arg6) = VR (Proc.devRef .tc R.main_arg6)
  a7 : VK (Proc.devRef .tc main_arg7) = VR (Proc.devRef .tc R.main_arg7)
  a8 : VK (Proc.devRef .tc main_arg8) = VR (Proc.devRef .tc R.main_arg8)
  a9 : VK (Proc.devRef .tc main_arg9) = VR (Proc.devRef .tc R.main_arg9)
  a10 : VK (Proc.devRef .tc main_arg10) = VR (Proc.devRef .tc R.main_arg10)
  a11 : VK (Proc.devRef .tc main_arg11) = VR (Proc.devRef .tc R.main_arg11)

/-- The arguments and the two index arrays hold the same contents on the two sides. -/
structure Inv7 (VK : Valuation τ sig (Elt Ideal)) (VR : Valuation R.τ R.sig (Elt Ideal)) : Prop where
  a0 : VK (Proc.devRef .tc main_arg0) = VR (Proc.devRef .tc R.main_arg0)
  a1 : VK (Proc.devRef .tc main_arg1) = VR (Proc.devRef .tc R.main_arg1)
  a2 : VK (Proc.devRef .tc main_arg2) = VR (Proc.devRef .tc R.main_arg2)
  a3 : VK (Proc.devRef .tc main_arg3) = VR (Proc.devRef .tc R.main_arg3)
  a4 : VK (Proc.devRef .tc main_arg4) = VR (Proc.devRef .tc R.main_arg4)
  a5 : VK (Proc.devRef .tc main_arg5) = VR (Proc.devRef .tc R.main_arg5)
  a6 : VK (Proc.devRef .tc main_arg6) = VR (Proc.devRef .tc R.main_arg6)
  a7 : VK (Proc.devRef .tc main_arg7) = VR (Proc.devRef .tc R.main_arg7)
  a8 : VK (Proc.devRef .tc main_arg8) = VR (Proc.devRef .tc R.main_arg8)
  a9 : VK (Proc.devRef .tc main_arg9) = VR (Proc.devRef .tc R.main_arg9)
  a10 : VK (Proc.devRef .tc main_arg10) = VR (Proc.devRef .tc R.main_arg10)
  a11 : VK (Proc.devRef .tc main_arg11) = VR (Proc.devRef .tc R.main_arg11)
  v3 : VK (Proc.devRef .tc main_v3) = VR (Proc.devRef .tc R.main_v3)
  v6 : VK (Proc.devRef .tc main_v6) = VR (Proc.devRef .tc R.main_v6)

/-- The arguments, the two index arrays and the per-edge weights hold the same contents on the two sides. -/
structure Inv (VK : Valuation τ sig (Elt Ideal)) (VR : Valuation R.τ R.sig (Elt Ideal)) : Prop where
  a0 : VK (Proc.devRef .tc main_arg0) = VR (Proc.devRef .tc R.main_arg0)
  a1 : VK (Proc.devRef .tc main_arg1) = VR (Proc.devRef .tc R.main_arg1)
  a2 : VK (Proc.devRef .tc main_arg2) = VR (Proc.devRef .tc R.main_arg2)
  a3 : VK (Proc.devRef .tc main_arg3) = VR (Proc.devRef .tc R.main_arg3)
  a4 : VK (Proc.devRef .tc main_arg4) = VR (Proc.devRef .tc R.main_arg4)
  a5 : VK (Proc.devRef .tc main_arg5) = VR (Proc.devRef .tc R.main_arg5)
  a6 : VK (Proc.devRef .tc main_arg6) = VR (Proc.devRef .tc R.main_arg6)
  a7 : VK (Proc.devRef .tc main_arg7) = VR (Proc.devRef .tc R.main_arg7)
  a8 : VK (Proc.devRef .tc main_arg8) = VR (Proc.devRef .tc R.main_arg8)
  a9 : VK (Proc.devRef .tc main_arg9) = VR (Proc.devRef .tc R.main_arg9)
  a10 : VK (Proc.devRef .tc main_arg10) = VR (Proc.devRef .tc R.main_arg10)
  a11 : VK (Proc.devRef .tc main_arg11) = VR (Proc.devRef .tc R.main_arg11)
  v3 : VK (Proc.devRef .tc main_v3) = VR (Proc.devRef .tc R.main_v3)
  v6 : VK (Proc.devRef .tc main_v6) = VR (Proc.devRef .tc R.main_v6)
  v31 : VK (Proc.devRef .tc main_v31) = VR (Proc.devRef .tc R.main_v31)

end Cert.Sim

end
-- ==== Proof.SimPre.lean ====
/-
  The stretch both programs start with: from the edge list, the two index arrays (sources and targets, each with the
  self loops appended) and then the per-edge weights (the product of the two endpoints' inverse root degrees). It is
  the same operations on both sides, read in two steps because a concatenated array keeps its two pieces inside a
  list: first the index arithmetic up to the two concatenations, whose pieces are compared one by one; then the rest,
  with the two index arrays as given.
-/
import proofs.«162351_j36601711296804_1_alg».proof.Proof.SimInv

set_option maxRecDepth 16384

noncomputable section

open Idealize.ShloMosaic Idealize.ShloMosaic.TcCoe Idealize.SL.Sem Idealize.ShloMosaic.StableHlo

namespace Cert.Sim

open Cert.KernelIdeal Cert.KernelIdeal.Gen

variable (VK : Valuation τ sig (Elt Ideal)) (VR : Valuation R.τ R.sig (Elt Ideal))

/-- Two concatenations of two pieces each are equal when the pieces are. -/
theorem cat_congr (a a' : (⟨S600000, .i32⟩ : BufTy).Contents (Elt Ideal)) (b b' : (⟨S50000, .i32⟩ : BufTy).Contents (Elt Ideal))
    (hK : Shape.Concatenates [S600000, S50000] S650000 0) (hR : Shape.Concatenates [R.S600000, R.S50000] R.S650000 0)
    (ha : a = a') (hb : b = b') :
    concatenate S650000 0 [⟨S600000, a⟩, ⟨S50000, b⟩] hK = concatenate R.S650000 0 [⟨R.S600000, a'⟩, ⟨R.S50000, b'⟩] hR := by
  subst ha hb
  rfl

set_option maxHeartbeats 4000000 in
/-- After the first seven operations the two index arrays agree: each is a row of the edge list followed by 0 … N−1. -/
theorem pre7 (h : Args VK VR) : Inv7 (after (hostOps0.take 7) VK) (after (rops.take 7) VR) := by
  simp only [hostOps0, rops, Cert.ReferenceIdeal.RunP.ops, List.take_succ_cons, List.take_zero]
  constructor
  case v3 =>
    after_results_simp
    refine cat_congr _ _ _ _ _ _ ?_ ?_
    · after_results_simp
      rw [h.a1]
      rfl
    · after_results_simp <;> rfl
  case v6 =>
    after_results_simp
    refine cat_congr _ _ _ _ _ _ ?_ ?_
    · after_results_simp
      rw [h.a1]
      rfl
    · after_results_simp <;> rfl
  all_goals (after_results_simp; first | exact h.a0 | exact h.a1 | exact h.a2 | exact h.a3 | exact h.a4 | exact h.a5 | exact h.a6 | exact h.a7 | exact h.a8 | exact h.a9 | exact h.a10 | exact h.a11)

set_option maxHeartbeats 8000000 in
/-- After the degree normalisation the per-edge weights agree too: they are the same operations of the two index arrays. -/
theorem pre43 (h : Inv7 VK VR) :
    Inv (after hostOps0_2 (after hostOps0_1 (after (hostOps0.drop 7) VK))) (after ((rops.drop 7).take 36) VR) := by
  simp only [hostOps0, rops, Cert.ReferenceIdeal.RunP.ops, List.take_succ_cons, List.take_zero, List.drop_succ_cons, List.drop_zero]
  constructor
  case v31 =>
    after_results_simp
    rw [h.v3, h.v6]
    rfl
  all_goals (after_results_simp; first | exact h.a0 | exact h.a1 | exact h.a2 | exact h.a3 | exact h.a4 | exact h.a5 | exact h.a6 | exact h.a7 | exact h.a8 | exact h.a9 | exact h.a10 | exact h.a11 | exact h.v3 | exact h.v6)

end Cert.Sim

end
-- ==== Proof.SimH1.lean ====
/-
  The first layer's stretch of host operations between the first projection and the first normalisation: gather the
  projected features along the edges, weight them, sum them into the target nodes, add the bias; then the column means
  and inverse deviations of the result.
-/
import proofs.«162351_j36601711296804_1_alg».proof.Proof.SimInv

set_option maxRecDepth 16384

noncomputable section

open Idealize.ShloMosaic Idealize.ShloMosaic.TcCoe Idealize.SL.Sem Idealize.ShloMosaic.StableHlo

namespace Cert.Sim

open Cert.KernelIdeal Cert.KernelIdeal.Gen

variable (VK : Valuation τ sig (Elt Ideal)) (VR : Valuation R.τ R.sig (Elt Ideal))

set_option maxHeartbeats 4000000 in
/-- Nothing of the invariant is written by the stretch. -/
theorem inv_h1 (h : Inv VK VR) : Inv (after hostOps1 VK) (after ((rops.drop 44).take 40) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

set_option maxHeartbeats 4000000 in
/-- The aggregate: each node's sum over its incoming edges of the projected source features times the edge weight,
    plus the bias. -/
theorem h1_agg (h : Inv VK VR) (hx : VK (Proc.devRef .tc main_v32) = VR (Proc.devRef .tc R.main_v32)) :
    after hostOps1 VK (Proc.devRef .tc main_v48) = after ((rops.drop 44).take 40) VR (Proc.devRef .tc R.main_v48) := by
  simp only [rops, Cert.ReferenceIdeal.RunP.ops, List.take_succ_cons, List.take_zero, List.drop_succ_cons, List.drop_zero]
  after_results_simp
  rw [h.v3, h.v6, h.v31, h.a3, hx]
  rfl

set_option maxHeartbeats 4000000 in
/-- The aggregate's column means, which the kernel's program hands to the launch as a one-row matrix. -/
theorem h1_mean (h : Inv VK VR) (hx : VK (Proc.devRef .tc main_v32) = VR (Proc.devRef .tc R.main_v32)) :
    after hostOps1 VK (Proc.devRef .tc main_v62) = shapeCast S1x128 (after ((rops.drop 44).take 40) VR (Proc.devRef .tc R.main_v51)) shapeCasts_S128_S1x128 := by
  simp only [rops, Cert.ReferenceIdeal.RunP.ops, List.take_succ_cons, List.take_zero, List.drop_succ_cons, List.drop_zero]
  after_results_simp
  rw [h.v3, h.v6, h.v31, h.a3, hx]
  rfl

set_option maxHeartbeats 4000000 in
/-- The inverse deviations: one over the root of the column variance plus the small constant. -/
theorem h1_invstd (h : Inv VK VR) (hx : VK (Proc.devRef .tc main_v32) = VR (Proc.devRef .tc R.main_v32)) :
    after hostOps1 VK (Proc.devRef .tc main_v63) = shapeCast S1x128 (after ((rops.drop 44).take 40) VR (Proc.devRef .tc R.main_v64)) shapeCasts_S128_S1x128 := by
  simp only [rops, Cert.ReferenceIdeal.RunP.ops, List.take_succ_cons, List.take_zero, List.drop_succ_cons, List.drop_zero]
  after_results_simp
  rw [h.v3, h.v6, h.v31, h.a3, hx]
  rfl

/-- The scale … -/
theorem h1_gamma (h : Inv VK VR) :
    after hostOps1 VK (Proc.devRef .tc main_v64) = shapeCast S1x128 (after ((rops.drop 44).take 40) VR (Proc.devRef .tc R.main_arg8)) shapeCasts_S128_S1x128 := by
  simp only [rops, Cert.ReferenceIdeal.RunP.ops, List.take_succ_cons, List.take_zero, List.drop_succ_cons, List.drop_zero]
  after_results_simp
  rw [h.a8]
  rfl

/-- … and the shift, as one-row matrices. -/
theorem h1_beta (h : Inv VK VR) :
    after hostOps1 VK (Proc.devRef .tc main_v65) = shapeCast S1x128 (after ((rops.drop 44).take 40) VR (Proc.devRef .tc R.main_arg9)) shapeCasts_S128_S1x128 := by
  simp only [rops, Cert.ReferenceIdeal.RunP.ops, List.take_succ_cons, List.take_zero, List.drop_succ_cons, List.drop_zero]
  after_results_simp
  rw [h.a9]
  rfl

set_option maxHeartbeats 4000000 in
/-- On the reference's side the centred aggregate is the aggregate minus its column means broadcast over the rows. -/
theorem h1_centered :
    after ((rops.drop 44).take 40) VR (Proc.devRef .tc R.main_v61)
      = subf (F := Ideal) (φ := .f32) (after ((rops.drop 44).take 40) VR (Proc.devRef .tc R.main_v48))
          (broadcastInDim R.S50000x128 ![0, 1] R.bcast_S1x128_S50000x128_0_1 (broadcastInDim R.S1x128 ![1] R.bcast_S128_S1x128_1 (after ((rops.drop 44).take 40) VR (Proc.devRef .tc R.main_v51)))) := by
  simp only [rops, Cert.ReferenceIdeal.RunP.ops, List.take_succ_cons, List.take_zero, List.drop_succ_cons, List.drop_zero]
  after_results_simp

end Cert.Sim

end
-- ==== Proof.SimH3.lean ====
/-
  The second layer's stretch of host operations between the second projection and the second normalisation: the same
  aggregation along the edges, bias, column means and inverse deviations.
-/
import proofs.«162351_j36601711296804_1_alg».proof.Proof.SimInv

set_option maxRecDepth 16384

noncomputable section

open Idealize.ShloMosaic Idealize.ShloMosaic.TcCoe Idealize.SL.Sem Idealize.ShloMosaic.StableHlo

namespace Cert.Sim

open Cert.KernelIdeal Cert.KernelIdeal.Gen

variable (VK : Valuation τ sig (Elt Ideal)) (VR : Valuation R.τ R.sig (Elt Ideal))

set_option maxHeartbeats 4000000 in
/-- Nothing of the invariant is written by the stretch. -/
theorem inv_h3 (h : Inv VK VR) : Inv (after hostOps3 VK) (after ((rops.drop 97).take 40) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

set_option maxHeartbeats 4000000 in
/-- The aggregate: each node's sum over its incoming edges of the projected source features times the edge weight,
    plus the bias. -/
theorem h3_agg (h : Inv VK VR) (hx : VK (Proc.devRef .tc main_v67) = VR (Proc.devRef .tc R.main_v75)) :
    after hostOps3 VK (Proc.devRef .tc main_v83) = after ((rops.drop 97).take 40) VR (Proc.devRef .tc R.main_v91) := by
  simp only [rops, Cert.ReferenceIdeal.RunP.ops, List.take_succ_cons, List.take_zero, List.drop_succ_cons, List.drop_zero]
  after_results_simp
  rw [h.v3, h.v6, h.v31, h.a5, hx]
  rfl

set_option maxHeartbeats 4000000 in
/-- The aggregate's column means, which the kernel's program hands to the launch as a one-row matrix. -/
theorem h3_mean (h : Inv VK VR) (hx : VK (Proc.devRef .tc main_v67) = VR (Proc.devRef .tc R.main_v75)) :
    after hostOps3 VK (Proc.devRef .tc main_v97) = shapeCast S1x128 (after ((rops.drop 97).take 40) VR (Proc.devRef .tc R.main_v94)) shapeCasts_S128_S1x128 := by
  simp only [rops, Cert.ReferenceIdeal.RunP.ops, List.take_succ_cons, List.take_zero, List.drop_succ_cons, List.drop_zero]
  after_results_simp
  rw [h.v3, h.v6, h.v31, h.a5, hx]
  rfl

set_option maxHeartbeats 4000000 in
/-- The inverse deviations: one over the root of the column variance plus the small constant. -/
theorem h3_invstd (h : Inv VK VR) (hx : VK (Proc.devRef .tc main_v67) = VR (Proc.devRef .tc R.main_v75)) :
    after hostOps3 VK (Proc.devRef .tc main_v98) = shapeCast S1x128 (after ((rops.drop 97).take 40) VR (Proc.devRef .tc R.main_v107)) shapeCasts_S128_S1x128 := by
  simp only [rops, Cert.ReferenceIdeal.RunP.ops, List.take_succ_cons, List.take_zero, List.drop_succ_cons, List.drop_zero]
  after_results_simp
  rw [h.v3, h.v6, h.v31, h.a5, hx]
  rfl

/-- The scale … -/
theorem h3_gamma (h : Inv VK VR) :
    after hostOps3 VK (Proc.devRef .tc main_v99) = shapeCast S1x128 (after ((rops.drop 97).take 40) VR (Proc.devRef .tc R.main_arg10)) shapeCasts_S128_S1x128 := by
  simp only [rops, Cert.ReferenceIdeal.RunP.ops, List.take_succ_cons, List.take_zero, List.drop_succ_cons, List.drop_zero]
  after_results_simp
  rw [h.a10]
  rfl

/-- … and the shift, as one-row matrices. -/
theorem h3_beta (h : Inv VK VR) :
    after hostOps3 VK (Proc.devRef .tc main_v100) = shapeCast S1x128 (after ((rops.drop 97).take 40) VR (Proc.devRef .tc R.main_arg11)) shapeCasts_S128_S1x128 := by
  simp only [rops, Cert.ReferenceIdeal.RunP.ops, List.take_succ_cons, List.take_zero, List.drop_succ_cons, List.drop_zero]
  after_results_simp
  rw [h.a11]
  rfl

set_option maxHeartbeats 4000000 in
/-- On the reference's side the centred aggregate is the aggregate minus its column means broadcast over the rows. -/
theorem h3_centered :
    after ((rops.drop 97).take 40) VR (Proc.devRef .tc R.main_v104)
      = subf (F := Ideal) (φ := .f32) (after ((rops.drop 97).take 40) VR (Proc.devRef .tc R.main_v91))
          (broadcastInDim R.S50000x128 ![0, 1] R.bcast_S1x128_S50000x128_0_1 (broadcastInDim R.S1x128 ![1] R.bcast_S128_S1x128_1 (after ((rops.drop 97).take 40) VR (Proc.devRef .tc R.main_v94)))) := by
  simp only [rops, Cert.ReferenceIdeal.RunP.ops, List.take_succ_cons, List.take_zero, List.drop_succ_cons, List.drop_zero]
  after_results_simp

end Cert.Sim

end
-- ==== Proof.SimH5.lean ====
/-
  The last stretch of host operations: the third aggregation along the edges and its bias, which is the result.
-/
import proofs.«162351_j36601711296804_1_alg».proof.Proof.SimInv

set_option maxRecDepth 16384

noncomputable section

open Idealize.ShloMosaic Idealize.ShloMosaic.TcCoe Idealize.SL.Sem Idealize.ShloMosaic.StableHlo

namespace Cert.Sim

open Cert.KernelIdeal Cert.KernelIdeal.Gen

variable (VK : Valuation τ sig (Elt Ideal)) (VR : Valuation R.τ R.sig (Elt Ideal))

set_option maxHeartbeats 4000000 in
/-- The result: each node's sum over its incoming edges of the projected source features times the edge weight, plus
    the bias — the same operations of inputs that agree. -/
theorem h5_out (h : Inv VK VR) (hx : VK (Proc.devRef .tc main_v102) = VR (Proc.devRef .tc R.main_v118)) :
    after hostOps5 VK (Proc.devRef .tc main_v118) = after (rops.drop 150) VR (Proc.devRef .tc R.main_v134) := by
  simp only [rops, Cert.ReferenceIdeal.RunP.ops, List.take_succ_cons, List.take_zero, List.drop_succ_cons, List.drop_zero]
  after_results_simp
  rw [h.v3, h.v6, h.v31, h.a7, hx]
  rfl

end Cert.Sim

end
-- ==== Proof.SimR.lean ====
/-
  The reference's own steps where the kernel's program has a launch: the three matrix products (one operation each)
  and the two normalisation chains (twelve operations each: scale the centred aggregate by the inverse deviation and by
  γ, shift by β, clip at zero). None of them writes a buffer of the invariant, and each result is read back as the
  operations applied to the step's inputs.
-/
import proofs.«162351_j36601711296804_1_alg».proof.Proof.SimInv

set_option maxRecDepth 16384

noncomputable section

open Idealize.ShloMosaic Idealize.ShloMosaic.TcCoe Idealize.SL.Sem Idealize.ShloMosaic.StableHlo

namespace Cert.Sim

open Cert.KernelIdeal Cert.KernelIdeal.Gen

variable (VK : Valuation τ sig (Elt Ideal)) (VR : Valuation R.τ R.sig (Elt Ideal))

set_option maxHeartbeats 4000000 in
/-- Nothing of the invariant is written by the reference's operations 43–43. -/
theorem inv_r43 (h : Inv VK VR) : Inv VK (after ((rops.drop 43).take 1) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

set_option maxHeartbeats 4000000 in
/-- Nothing of the invariant is written by the reference's operations 84–95. -/
theorem inv_r84 (h : Inv VK VR) : Inv VK (after ((rops.drop 84).take 12) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

set_option maxHeartbeats 4000000 in
/-- Nothing of the invariant is written by the reference's operations 96–96. -/
theorem inv_r96 (h : Inv VK VR) : Inv VK (after ((rops.drop 96).take 1) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

set_option maxHeartbeats 4000000 in
/-- Nothing of the invariant is written by the reference's operations 137–148. -/
theorem inv_r137 (h : Inv VK VR) : Inv VK (after ((rops.drop 137).take 12) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

set_option maxHeartbeats 4000000 in
/-- Nothing of the invariant is written by the reference's operations 149–149. -/
theorem inv_r149 (h : Inv VK VR) : Inv VK (after ((rops.drop 149).take 1) VR) := by
  simp only [rops, Cert.ReferenceIdeal.RunP.ops, List.take_succ_cons, List.take_zero, List.drop_succ_cons, List.drop_zero]
  constructor <;> (after_results_simp; first | exact h.a0 | exact h.a1 | exact h.a2 | exact h.a3 | exact h.a4 | exact h.a5 | exact h.a6 | exact h.a7 | exact h.a8 | exact h.a9 | exact h.a10 | exact h.a11 | exact h.v3 | exact h.v6 | exact h.v31)

/-- The first product: the node features times the first weight matrix. -/
theorem r_dot1 : after ((rops.drop 43).take 1) VR (Proc.devRef .tc R.main_v32)
    = Host.dotGeneral (F := Ideal) (φ₁ := .f32) (φ₂ := .f32) R.dot_S50000x128_S128x128_S50000x128_1_0_0_1_n_n none (VR (Proc.devRef .tc R.main_arg0)) (VR (Proc.devRef .tc R.main_arg2)) := by
  simp only [rops, Cert.ReferenceIdeal.RunP.ops, List.take_succ_cons, List.take_zero, List.drop_succ_cons, List.drop_zero]
  after_results_simp <;> rfl

/-- The second product: the first layer's activations times the second weight matrix. -/
theorem r_dot2 : after ((rops.drop 96).take 1) VR (Proc.devRef .tc R.main_v75)
    = Host.dotGeneral (F := Ideal) (φ₁ := .f32) (φ₂ := .f32) R.dot_S50000x128_S128x128_S50000x128_1_0_0_1_n_n none (VR (Proc.devRef .tc R.main_v74)) (VR (Proc.devRef .tc R.main_arg4)) := by
  simp only [rops, Cert.ReferenceIdeal.RunP.ops, List.take_succ_cons, List.take_zero, List.drop_succ_cons, List.drop_zero]
  after_results_simp <;> rfl

/-- The third product: the second layer's activations times the third weight matrix. -/
theorem r_dot3 : after ((rops.drop 149).take 1) VR (Proc.devRef .tc R.main_v118)
    = Host.dotGeneral (F := Ideal) (φ₁ := .f32) (φ₂ := .f32) R.dot_S50000x128_S128x40_S50000x40_1_0_0_1_n_n none (VR (Proc.devRef .tc R.main_v117)) (VR (Proc.devRef .tc R.main_arg6)) := by
  simp only [rops, Cert.ReferenceIdeal.RunP.ops, List.take_succ_cons, List.take_zero, List.drop_succ_cons, List.drop_zero]
  after_results_simp <;> rfl

set_option maxHeartbeats 4000000 in
/-- The first layer's activations: the centred aggregate scaled by the inverse deviation and γ, shifted by β, clipped at zero. -/
theorem r_norm1 : after ((rops.drop 84).take 12) VR (Proc.devRef .tc R.main_v74)
    = maximumf (F := Ideal) (φ := .f32) (s := R.S50000x128)
        (addf (F := Ideal) (φ := .f32) (s := R.S50000x128)
          (mulf (F := Ideal) (φ := .f32) (s := R.S50000x128)
            (mulf (F := Ideal) (φ := .f32) (s := R.S50000x128) (VR (Proc.devRef .tc R.main_v61)) (broadcastInDim R.S50000x128 ![0, 1] R.bcast_S1x128_S50000x128_0_1 (broadcastInDim R.S1x128 ![1] R.bcast_S128_S1x128_1 (VR (Proc.devRef .tc R.main_v64)))))
            (broadcastInDim R.S50000x128 ![0, 1] R.bcast_S1x128_S50000x128_0_1 (broadcastInDim R.S1x128 ![1] R.bcast_S128_S1x128_1 (VR (Proc.devRef .tc R.main_arg8)))))
          (broadcastInDim R.S50000x128 ![0, 1] R.bcast_S1x128_S50000x128_0_1 (broadcastInDim R.S1x128 ![1] R.bcast_S128_S1x128_1 (VR (Proc.devRef .tc R.main_arg9)))))
        (broadcastInDim R.S50000x128 ![] R.bcast_S_S50000x128 (constant (F := Ideal) R.S_ .f32 0x00000000#32)) := by
  simp only [rops, Cert.ReferenceIdeal.RunP.ops, List.take_succ_cons, List.take_zero, List.drop_succ_cons, List.drop_zero]
  after_results_simp <;> rfl

set_option maxHeartbeats 4000000 in
/-- The second layer's activations, by the same chain. -/
theorem r_norm2 : after ((rops.drop 137).take 12) VR (Proc.devRef .tc R.main_v117)
    = maximumf (F := Ideal) (φ := .f32) (s := R.S50000x128)
        (addf (F := Ideal) (φ := .f32) (s := R.S50000x128)
          (mulf (F := Ideal) (φ := .f32) (s := R.S50000x128)
            (mulf (F := Ideal) (φ := .f32) (s := R.S50000x128) (VR (Proc.devRef .tc R.main_v104)) (broadcastInDim R.S50000x128 ![0, 1] R.bcast_S1x128_S50000x128_0_1 (broadcastInDim R.S1x128 ![1] R.bcast_S128_S1x128_1 (VR (Proc.devRef .tc R.main_v107)))))
            (broadcastInDim R.S50000x128 ![0, 1] R.bcast_S1x128_S50000x128_0_1 (broadcastInDim R.S1x128 ![1] R.bcast_S128_S1x128_1 (VR (Proc.devRef .tc R.main_arg10)))))
          (broadcastInDim R.S50000x128 ![0, 1] R.bcast_S1x128_S50000x128_0_1 (broadcastInDim R.S1x128 ![1] R.bcast_S128_S1x128_1 (VR (Proc.devRef .tc R.main_arg11)))))
        (broadcastInDim R.S50000x128 ![] R.bcast_S_S50000x128 (constant (F := Ideal) R.S_ .f32 0x00000000#32)) := by
  simp only [rops, Cert.ReferenceIdeal.RunP.ops, List.take_succ_cons, List.take_zero, List.drop_succ_cons, List.drop_zero]
  after_results_simp <;> rfl

end Cert.Sim

end
-- ==== Proof.Payloads.lean ====
/-
  The two kinds of kernel body of the graph-convolution stack, each read at one element of its output block, on the
  extended reals (where a change of float format is the identity and every operation is exact):

  * the projection body multiplies a block of rows by the whole weight matrix into a zero accumulator, so its element
    (r, c) is the sum over the shared axis k of  x(r, k) · w(k, c);
  * the normalisation body computes, with the four per-column vectors given as one-row matrices,
    max((h(r, c) − μ(0, c)) · s(0, c) · γ(0, c) + β(0, c), 0).

  `rowsTimes` and `normRelu` state these two functions once, for any extents; the lemmas below say that each printed
  payload is one of them at every index.
-/
import proofs.«162351_j36601711296804_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.Gcn

/-- Rows of `x` against columns of `w`: element (r, c) is the sum over k of x(r, k) · w(k, c). -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- Column-wise affine normalisation followed by the positive part: element (r, c) is
    max((h(r, c) − μ(0, c)) · s(0, c) · γ(0, c) + β(0, c), 0), the zero being the float word of zero. -/
def normRelu {M N : Nat} (h : (⟨2, ![M, N]⟩ : Shape).Idx → EReal) (mu s g b : (⟨2, ![1, N]⟩ : Shape).Idx → EReal) :
    (⟨2, ![M, N]⟩ : Shape).Idx → EReal :=
  fun i => max ((h i - mu (ix2 (0 : Fin 1) (i 1))) * s (ix2 (0 : Fin 1) (i 1)) * g (ix2 (0 : Fin 1) (i 1)) + b (ix2 (0 : Fin 1) (i 1)))
    (Ideal.ofBits .f32 0x00000000#32)

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

theorem normRelu_apply {M N : Nat} (h : (⟨2, ![M, N]⟩ : Shape).Idx → EReal) (mu s g b : (⟨2, ![1, N]⟩ : Shape).Idx → EReal)
    (r : Fin M) (c : Fin N) :
    normRelu h mu s g b (ix2 r c) = max ((h (ix2 r c) - mu (ix2 (0 : Fin 1) c)) * s (ix2 (0 : Fin 1) c) * g (ix2 (0 : Fin 1) c) + b (ix2 (0 : Fin 1) c))
      (Ideal.ofBits .f32 0x00000000#32) := rfl

/-- The normalised value at an index depends only on the five entries it reads: the array's own entry and the four
    vectors' entries in its column. -/
theorem normRelu_congr {M M' N : Nat} (h : (⟨2, ![M, N]⟩ : Shape).Idx → EReal) (mu s g b : (⟨2, ![1, N]⟩ : Shape).Idx → EReal)
    (H : (⟨2, ![M', N]⟩ : Shape).Idx → EReal) (Mu Sd Ga Be : (⟨2, ![1, N]⟩ : Shape).Idx → EReal)
    (i : (⟨2, ![M, N]⟩ : Shape).Idx) (i' : (⟨2, ![M', N]⟩ : Shape).Idx)
    (e0 : h i = H i') (e1 : mu (ix2 (0 : Fin 1) (i 1)) = Mu (ix2 (0 : Fin 1) (i' 1)))
    (e2 : s (ix2 (0 : Fin 1) (i 1)) = Sd (ix2 (0 : Fin 1) (i' 1))) (e3 : g (ix2 (0 : Fin 1) (i 1)) = Ga (ix2 (0 : Fin 1) (i' 1)))
    (e4 : b (ix2 (0 : Fin 1) (i 1)) = Be (ix2 (0 : Fin 1) (i' 1))) :
    normRelu h mu s g b i = normRelu H Mu Sd Ga Be i' := by
  show max ((h i - mu (ix2 (0 : Fin 1) (i 1))) * s (ix2 (0 : Fin 1) (i 1)) * g (ix2 (0 : Fin 1) (i 1)) + b (ix2 (0 : Fin 1) (i 1))) _
    = max ((H i' - Mu (ix2 (0 : Fin 1) (i' 1))) * Sd (ix2 (0 : Fin 1) (i' 1)) * Ga (ix2 (0 : Fin 1) (i' 1)) + Be (ix2 (0 : Fin 1) (i' 1))) _
  rw [e0, e1, e2, e3, e4]

end Cert.Gcn

namespace Cert.KernelIdeal.Pay

open Cert.KernelIdeal Cert.KernelIdeal.Gen Cert.Gcn

/-! ## The projection body: a block of rows times the weight matrix -/

/-- The left index of the block product keeps the output's row … -/
theorem lhs128_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the right index keeps the output's column. -/
theorem rhs128_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, 128 output columns: the contraction's one axis re-indexed by its coordinate. -/
theorem matmul_128_apply (x : FVec Ideal S5000x128 .bf16) (w : FVec Ideal S128x128 .bf16) (r : Fin 5000) (c : Fin 128) :
    matmul dot_S5000x128_S128x128_S5000x128_1_0_0_1_n_n none x w (constant (F := Ideal) S5000x128 .f32 0x00000000#32) (ix2 r c)
      = ∑ k : Fin 128, x (ix2 r k) * w (ix2 k c) := by
  show FloatOps.matmul dot_S5000x128_S128x128_S5000x128_1_0_0_1_n_n none x w (constant (F := Ideal) S5000x128 .f32 0x00000000#32) (ix2 r c) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k :=
    funext fun a => Fin.ext (by
      match a with
      | ⟨0, _⟩ => exact lhs128_0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r c) ((contrEquiv1 dot_S5000x128_S128x128_S5000x128_1_0_0_1_n_n 128 rfl rfl).symm k) = ix2 k c :=
    funext fun a => Fin.ext (by
      match a with
      | ⟨0, _⟩ => exact (dot_S5000x128_S128x128_S5000x128_1_0_0_1_n_n.rhsIdx_val_of_single rfl _ _).trans hk
      | ⟨1, _⟩ => exact rhs128_1 _ _)
  rw [el, er]

/-- The left index of the block product keeps the output's row … -/
theorem lhs40_0 (i : S5000x40.Idx) (q : dot_S5000x128_S128x40_S5000x40_1_0_0_1_n_n.contr.Idx) : (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … and the right index keeps the output's column. -/
theorem rhs40_1 (i : S5000x40.Idx) (q : dot_S5000x128_S128x40_S5000x40_1_0_0_1_n_n.contr.Idx) : (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The block product into a zero accumulator, 40 output columns: the contraction's one axis re-indexed by its coordinate. -/
theorem matmul_40_apply (x : FVec Ideal S5000x128 .bf16) (w : FVec Ideal S128x40 .bf16) (r : Fin 5000) (c : Fin 40) :
    matmul dot_S5000x128_S128x40_S5000x40_1_0_0_1_n_n none x w (constant (F := Ideal) S5000x40 .f32 0x00000000#32) (ix2 r c)
      = ∑ k : Fin 128, x (ix2 r k) * w (ix2 k c) := by
  show FloatOps.matmul dot_S5000x128_S128x40_S5000x40_1_0_0_1_n_n none x w (constant (F := Ideal) S5000x40 .f32 0x00000000#32) (ix2 r c) = _
  rw [Ideal.matmul_constant_zero_apply, ← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 r c) ((contrEquiv1 dot_S5000x128_S128x40_S5000x40_1_0_0_1_n_n 128 rfl rfl).symm k) = ix2 r k :=
    funext fun a => Fin.ext (by
      match a with
      | ⟨0, _⟩ => exact lhs40_0 _ _
      | ⟨1, _⟩ => exact (dot_S5000x128_S128x40_S5000x40_1_0_0_1_n_n.lhsIdx_val_of_single rfl _ _).trans hk)
  have er : dot_S5000x128_S128x40_S5000x40_1_0_0_1_n_n.rhsIdx (ix2 r c) ((contrEquiv1 dot_S5000x128_S128x40_S5000x40_1_0_0_1_n_n 128 rfl rfl).symm k) = ix2 k c :=
    funext fun a => Fin.ext (by
      match a with
      | ⟨0, _⟩ => exact (dot_S5000x128_S128x40_S5000x40_1_0_0_1_n_n.rhsIdx_val_of_single rfl _ _).trans hk
      | ⟨1, _⟩ => exact rhs40_1 _ _)
  rw [el, er]

/-- The first projection's payload is rows times columns. -/
theorem k0_pay1_eq (v0 : Vec Ideal S5000x128 .f32) (v2 : Vec Ideal S128x128 .f32) :
    k0_pay1 (F := Ideal) v0 v2 = rowsTimes (M := 5000) (K := 128) (N := 128) v0 v2 := by
  funext j
  obtain ⟨r, c, rfl⟩ : ∃ (r : Fin 5000) (c : Fin 128), j = ix2 r c := ⟨j 0, j 1, eq_ix2 j⟩
  unfold k0_pay1
  exact matmul_128_apply _ _ r c

/-- The second projection's payload (its left operand passes through an identity cast first). -/
theorem k2_pay1_eq (v0 : Vec Ideal S5000x128 .f32) (v3 : Vec Ideal S128x128 .f32) :
    k2_pay1 (F := Ideal) v0 v3 = rowsTimes (M := 5000) (K := 128) (N := 128) v0 v3 := by
  funext j
  obtain ⟨r, c, rfl⟩ : ∃ (r : Fin 5000) (c : Fin 128), j = ix2 r c := ⟨j 0, j 1, eq_ix2 j⟩
  unfold k2_pay1
  refine (matmul_128_apply _ _ r c).trans ?_
  simp only [shapeCast_self]
  rfl

/-- The third projection's payload, onto 40 columns. -/
theorem k4_pay1_eq (v0 : Vec Ideal S5000x128 .f32) (v3 : Vec Ideal S128x40 .f32) :
    k4_pay1 (F := Ideal) v0 v3 = rowsTimes (M := 5000) (K := 128) (N := 40) v0 v3 := by
  funext j
  obtain ⟨r, c, rfl⟩ : ∃ (r : Fin 5000) (c : Fin 40), j = ix2 r c := ⟨j 0, j 1, eq_ix2 j⟩
  unfold k4_pay1
  refine (matmul_40_apply _ _ r c).trans ?_
  simp only [shapeCast_self]
  rfl

/-! ## The normalisation body -/

/-- One row broadcast over the block's 5000 rows reads the row at the column. -/
theorem row_bcast_apply (v : Vec Ideal S1x128 .f32) (r : Fin 5000) (c : Fin 128) :
    broadcastTo S5000x128 v broadcasts_S1x128_S5000x128 (ix2 r c) = v (ix2 (0 : Fin 1) c) :=
  broadcastTo_1b_ab_apply v broadcasts_S1x128_S5000x128 r c

theorem k1_pay1_eq (v0 : Vec Ideal S5000x128 .f32) (v2 v6 v10 v14 : Vec Ideal S1x128 .f32) :
    k1_pay1 (F := Ideal) v0 v2 v6 v10 v14 = normRelu (M := 5000) (N := 128) v0 v2 v6 v10 v14 := by
  funext j
  obtain ⟨r, c, rfl⟩ : ∃ (r : Fin 5000) (c : Fin 128), j = ix2 r c := ⟨j 0, j 1, eq_ix2 j⟩
  unfold k1_pay1
  rw [normRelu_apply]
  simp only [maximumf_apply, addf_apply, mulf_apply, subf_apply, shapeCast_self, broadcast_apply]
  rw [row_bcast_apply v2 r c, row_bcast_apply v6 r c, row_bcast_apply v10 r c, row_bcast_apply v14 r c]
  rfl

theorem k3_pay1_eq (v0 : Vec Ideal S5000x128 .f32) (v2 v6 v10 v14 : Vec Ideal S1x128 .f32) :
    k3_pay1 (F := Ideal) v0 v2 v6 v10 v14 = normRelu (M := 5000) (N := 128) v0 v2 v6 v10 v14 := by
  funext j
  obtain ⟨r, c, rfl⟩ : ∃ (r : Fin 5000) (c : Fin 128), j = ix2 r c := ⟨j 0, j 1, eq_ix2 j⟩
  unfold k3_pay1
  rw [normRelu_apply]
  simp only [maximumf_apply, addf_apply, mulf_apply, subf_apply, shapeCast_self, broadcast_apply]
  rw [row_bcast_apply v2 r c, row_bcast_apply v6 r c, row_bcast_apply v10 r c, row_bcast_apply v14 r c]
  rfl

end Cert.KernelIdeal.Pay

end
-- ==== Proof.Proj0.lean ====
/-
  The first projection launch: the node features times the first weight matrix.
  The launch walks ten blocks of 5000 rows. At each point the body reads the point's block of rows and the whole
  weight matrix and writes the block of the product; block t of the output sits at rows 5000·t … 5000·t + 4999, where
  the input block sits too, so what point t writes back is block t of ONE function of the two arrays — rows times
  columns — and the ten blocks cover the output array. So after the launch the output array is that function.
-/
import proofs.«162351_j36601711296804_1_alg».proof.Proof.Gen.KernelIdeal.Frame
import proofs.«162351_j36601711296804_1_alg».proof.Proof.Payloads
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, the weight
    matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of rows-times-columns of the two arrays as the launch finds them. -/
theorem flushed_eq (c : Dev nD) (t : Fin cfg0.N) :
    (dat0 V c).flushed 2 t = ((cfg0.win 2).blk t).view.read (Elt Ideal)
      (rowsTimes (M := 50000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Pay.k0_pay1_eq]
  obtain ⟨e0, e1, e2, e3, e4, e5⟩ := idx_facts t
  have key : ∀ (X : S50000x128.Idx → EReal) (Wt : S128x128.Idx → EReal),
      (fun j : ((cfg0.win 2).xblock (grid0.coords t)).Idx =>
          ∑ k : Fin 128, X (((cfg0.win 0).blk t).view.emb (ix2 (j 0) k)) * Wt (((cfg0.win 1).blk t).view.emb (ix2 k (j 1))))
        = fun j => ∑ k : Fin 128, X (ix2 ((((cfg0.win 2).blk t).view.emb j) 0) k) * Wt (ix2 k ((((cfg0.win 2).blk t).view.emb j) 1)) := by
    intro X Wt
    funext j
    refine Finset.sum_congr rfl fun k _ => ?_
    have h0 : ((cfg0.win 0).blk t).view.emb (ix2 (j 0) k) = ix2 ((((cfg0.win 2).blk t).view.emb j) 0) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 128 + 1 * k.val = k.val; omega
    have h1 : ((cfg0.win 1).blk t).view.emb (ix2 k (j 1)) = ix2 k ((((cfg0.win 2).blk t).view.emb j) 1) := by
      funext a; apply Fin.ext
      match a with
      | ⟨0, _⟩ => show win0_1.index t (0 : Fin 2) * 128 + 1 * k.val = k.val; omega
      | ⟨1, _⟩ => show win0_1.index t (1 : Fin 2) * 128 + 1 * (j 1).val = win0_2.index t (1 : Fin 2) * 128 + 1 * (j 1).val; omega
    rw [h0, h1]
    rfl
  exact key (V c main_arg0) (V c main_arg2)

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- After the launch the output array is rows-times-columns of the two input arrays: row r lies in block r / 5000. -/
theorem final (c : Dev nD) :
    (dat0 V c).arrAt 2 cfg0.N = rowsTimes (M := 50000) (K := 128) (N := 128) (V c main_arg0) (V c main_arg2) :=
  (dat0 V c).arrAt_eq_of_cover 2 _ (fun t _ => flushed_eq V c t) fun i => by
    have hi0 : (i 0).val < 50000 := (i 0).isLt
    have hi1 : (i 1).val < 128 := (i 1).isLt
    have hN : cfg0.N = 10 := N_0
    refine ⟨⟨(i 0).val / 5000, by rw [hN]; omega⟩, flush0_2 _, ?_⟩
    rw [mem_blk]
    obtain ⟨e0, e1, e2, e3, e4, e5⟩ := idx_facts ⟨(i 0).val / 5000, by rw [hN]; omega⟩
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 128 ≤ (i 1).val ∧ (i 1).val < win0_2.index _ (1 : Fin 2) * 128 + 128
      rw [e5]; omega

end Cert.KernelIdeal.Proj0

end
-- ==== Proof.Proj2.lean ====
/-
  The second projection launch: the first layer's activations times the second weight matrix.
  The launch walks ten blocks of 5000 rows. At each point the body reads the point's block of rows and the whole
  weight matrix and writes the block of the product; block t of the output sits at rows 5000·t … 5000·t + 4999, where
  the input block sits too, so what point t writes back is block t of ONE function of the two arrays — rows times
  columns — and the ten blocks cover the output array. So after the launch the output array is that function.
-/
import proofs.«162351_j36601711296804_1_alg».proof.Proof.Gen.KernelIdeal.Frame
import proofs.«162351_j36601711296804_1_alg».proof.Proof.Payloads
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, the weight
    matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of rows-times-columns of the two arrays as the launch finds them. -/
theorem flushed_eq (c : Dev nD) (t : Fin cfg2.N) :
    (dat2 V c).flushed 2 t = ((cfg2.win 2).blk t).view.read (Elt Ideal)
      (rowsTimes (M := 50000) (K := 128) (N := 128) (V c main_v66) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [Pay.k2_pay1_eq]
  obtain ⟨e0, e1, e2, e3, e4, e5⟩ := idx_facts t
  have key : ∀ (X : S50000x128.Idx → EReal) (Wt : S128x128.Idx → EReal),
      (fun j : ((cfg2.win 2).xblock (grid2.coords t)).Idx =>
          ∑ k : Fin 128, X (((cfg2.win 0).blk t).view.emb (ix2 (j 0) k)) * Wt (((cfg2.win 1).blk t).view.emb (ix2 k (j 1))))
        = fun j => ∑ k : Fin 128, X (ix2 ((((cfg2.win 2).blk t).view.emb j) 0) k) * Wt (ix2 k ((((cfg2.win 2).blk t).view.emb j) 1)) := by
    intro X Wt
    funext j
    refine Finset.sum_congr rfl fun k _ => ?_
    have h0 : ((cfg2.win 0).blk t).view.emb (ix2 (j 0) k) = ix2 ((((cfg2.win 2).blk t).view.emb j) 0) k := by
      funext a; apply Fin.ext
      match a with
      | ⟨0, _⟩ => show win2_0.index t (0 : Fin 2) * 5000 + 1 * (j 0).val = win2_2.index t (0 : Fin 2) * 5000 + 1 * (j 0).val; omega
      | ⟨1, _⟩ => show win2_0.index t (1 : Fin 2) * 128 + 1 * k.val = k.val; omega
    have h1 : ((cfg2.win 1).blk t).view.emb (ix2 k (j 1)) = ix2 k ((((cfg2.win 2).blk t).view.emb j) 1) := by
      funext a; apply Fin.ext
      match a with
      | ⟨0, _⟩ => show win2_1.index t (0 : Fin 2) * 128 + 1 * k.val = k.val; omega
      | ⟨1, _⟩ => show win2_1.index t (1 : Fin 2) * 128 + 1 * (j 1).val = win2_2.index t (1 : Fin 2) * 128 + 1 * (j 1).val; omega
    rw [h0, h1]
    rfl
  exact key (V c main_v66) (V c main_arg4)

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v67).slice (win2_2.rect t)).set ↔ _
  rw [View.set_slice_whole, Rect.mem_set_unit]
  exact Iff.rfl

/-- After the launch the output array is rows-times-columns of the two input arrays: row r lies in block r / 5000. -/
theorem final (c : Dev nD) :
    (dat2 V c).arrAt 2 cfg2.N = rowsTimes (M := 50000) (K := 128) (N := 128) (V c main_v66) (V c main_arg4) :=
  (dat2 V c).arrAt_eq_of_cover 2 _ (fun t _ => flushed_eq V c t) fun i => by
    have hi0 : (i 0).val < 50000 := (i 0).isLt
    have hi1 : (i 1).val < 128 := (i 1).isLt
    have hN : cfg2.N = 10 := N_2
    refine ⟨⟨(i 0).val / 5000, by rw [hN]; omega⟩, flush2_2 _, ?_⟩
    rw [mem_blk]
    obtain ⟨e0, e1, e2, e3, e4, e5⟩ := idx_facts ⟨(i 0).val / 5000, by rw [hN]; omega⟩
    intro a
    match a with
    | ⟨0, _⟩ =>
      show win2_2.index _ (0 : Fin 2) * 5000 ≤ (i 0).val ∧ (i 0).val < win2_2.index _ (0 : Fin 2) * 5000 + 5000
      rw [e4]; show (i 0).val / 5000 * 5000 ≤ (i 0).val ∧ (i 0).val < (i 0).val / 5000 * 5000 + 5000; omega
    | ⟨1, _⟩ =>
      show win2_2.index _ (1 : Fin 2) * 128 ≤ (i 1).val ∧ (i 1).val < win2_2.index _ (1 : Fin 2) * 128 + 128
      rw [e5]; omega

end Cert.KernelIdeal.Proj2

end
-- ==== Proof.Proj4.lean ====
/-
  The third projection launch: the second layer's activations times the third weight matrix, onto 40 columns.
  The launch walks ten blocks of 5000 rows. At each point the body reads the point's block of rows and the whole
  weight matrix and writes the block of the product; block t of the output sits at rows 5000·t … 5000·t + 4999, where
  the input block sits too, so what point t writes back is block t of ONE function of the two arrays — rows times
  columns — and the ten blocks cover the output array. So after the launch the output array is that function.
-/
import proofs.«162351_j36601711296804_1_alg».proof.Proof.Gen.KernelIdeal.Frame
import proofs.«162351_j36601711296804_1_alg».proof.Proof.Payloads
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj4

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, the weight
    matrix is one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of rows-times-columns of the two arrays as the launch finds them. -/
theorem flushed_eq (c : Dev nD) (t : Fin cfg4.N) :
    (dat4 V c).flushed 2 t = ((cfg4.win 2).blk t).view.read (Elt Ideal)
      (rowsTimes (M := 50000) (K := 128) (N := 40) (V c main_v101) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x40) hz]
  rw [Pay.k4_pay1_eq]
  obtain ⟨e0, e1, e2, e3, e4, e5⟩ := idx_facts t
  have key : ∀ (X : S50000x128.Idx → EReal) (Wt : S128x40.Idx → EReal),
      (fun j : ((cfg4.win 2).xblock (grid4.coords t)).Idx =>
          ∑ k : Fin 128, X (((cfg4.win 0).blk t).view.emb (ix2 (j 0) k)) * Wt (((cfg4.win 1).blk t).view.emb (ix2 k (j 1))))
        = fun j => ∑ k : Fin 128, X (ix2 ((((cfg4.win 2).blk t).view.emb j) 0) k) * Wt (ix2 k ((((cfg4.win 2).blk t).view.emb j) 1)) := by
    intro X Wt
    funext j
    refine Finset.sum_congr rfl fun k _ => ?_
    have h0 : ((cfg4.win 0).blk t).view.emb (ix2 (j 0) k) = ix2 ((((cfg4.win 2).blk t).view.emb j) 0) k := by
      funext a; apply Fin.ext
      match a with
      | ⟨0, _⟩ => show win4_0.index t (0 : Fin 2) * 5000 + 1 * (j 0).val = win4_2.index t (0 : Fin 2) * 5000 + 1 * (j 0).val; omega
      | ⟨1, _⟩ => show win4_0.index t (1 : Fin 2) * 128 + 1 * k.val = k.val; omega
    have h1 : ((cfg4.win 1).blk t).view.emb (ix2 k (j 1)) = ix2 k ((((cfg4.win 2).blk t).view.emb j) 1) := by
      funext a; apply Fin.ext
      match a with
      | ⟨0, _⟩ => show win4_1.index t (0 : Fin 2) * 128 + 1 * k.val = k.val; omega
      | ⟨1, _⟩ => show win4_1.index t (1 : Fin 2) * 40 + 1 * (j 1).val = win4_2.index t (1 : Fin 2) * 40 + 1 * (j 1).val; omega
    rw [h0, h1]
    rfl
  exact key (V c main_v101) (V c main_arg6)

/-- An index of the output array is in point `t`'s block iff each coordinate is in the block's range on its axis. -/
theorem mem_blk (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v102).slice (win4_2.rect t)).set ↔ _
  rw [View.set_slice_whole, Rect.mem_set_unit]
  exact Iff.rfl

/-- After the launch the output array is rows-times-columns of the two input arrays: row r lies in block r / 5000. -/
theorem final (c : Dev nD) :
    (dat4 V c).arrAt 2 cfg4.N = rowsTimes (M := 50000) (K := 128) (N := 40) (V c main_v101) (V c main_arg6) :=
  (dat4 V c).arrAt_eq_of_cover 2 _ (fun t _ => flushed_eq V c t) fun i => by
    have hi0 : (i 0).val < 50000 := (i 0).isLt
    have hi1 : (i 1).val < 40 := (i 1).isLt
    have hN : cfg4.N = 10 := N_4
    refine ⟨⟨(i 0).val / 5000, by rw [hN]; omega⟩, flush4_2 _, ?_⟩
    rw [mem_blk]
    obtain ⟨e0, e1, e2, e3, e4, e5⟩ := idx_facts ⟨(i 0).val / 5000, by rw [hN]; omega⟩
    intro a
    match a with
    | ⟨0, _⟩ =>
      show win4_2.index _ (0 : Fin 2) * 5000 ≤ (i 0).val ∧ (i 0).val < win4_2.index _ (0 : Fin 2) * 5000 + 5000
      rw [e4]; show (i 0).val / 5000 * 5000 ≤ (i 0).val ∧ (i 0).val < (i 0).val / 5000 * 5000 + 5000; omega
    | ⟨1, _⟩ =>
      show win4_2.index _ (1 : Fin 2) * 40 ≤ (i 1).val ∧ (i 1).val < win4_2.index _ (1 : Fin 2) * 40 + 40
      rw [e5]; omega

end Cert.KernelIdeal.Proj4

end
-- ==== Proof.Norm1.lean ====
/-
  The first normalisation launch: the first layer's aggregate, centred, scaled and clipped at zero.
  The launch walks ten blocks of 5000 rows. At each point the body reads the point's block of rows and the four
  one-row matrices (mean, inverse deviation, scale, shift) whole, and writes the block of
  max((h − μ) · s · γ + β, 0); the output block sits at the rows of the input block, so what point t writes back is
  block t of ONE function of the five arrays, and the ten blocks cover the output array.
-/
import proofs.«162351_j36601711296804_1_alg».proof.Proof.Gen.KernelIdeal.Frame
import proofs.«162351_j36601711296804_1_alg».proof.Proof.Payloads
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, each of the
    four one-row matrices is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 4000000 in
/-- What point `t` writes back is block `t` of the normalised, clipped array of the five arrays as the launch finds them. -/
theorem flushed_eq (c : Dev nD) (t : Fin cfg1.N) :
    (dat1 V c).flushed 5 t = ((cfg1.win 5).blk t).view.read (Elt Ideal)
      (normRelu (M := 50000) (N := 128) (V c main_v48) (V c main_v62) (V c main_v63) (V c main_v64) (V c main_v65)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  rw [Pay.k1_pay1_eq]
  obtain ⟨e0, e1, e2, e3, e4, e5, e6, e7, e8, e9, e10, e11⟩ := idx_facts t
  funext j
  have h0 : ((cfg1.win 0).blk t).view.emb j = (((cfg1.win 5).blk t).view.emb j) := by
    funext a; apply Fin.ext
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb (ix2 (0 : Fin 1) (j 1)) = ix2 (0 : Fin 1) ((((cfg1.win 5).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : ((cfg1.win 2).blk t).view.emb (ix2 (0 : Fin 1) (j 1)) = ix2 (0 : Fin 1) ((((cfg1.win 5).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : ((cfg1.win 3).blk t).view.emb (ix2 (0 : Fin 1) (j 1)) = ix2 (0 : Fin 1) ((((cfg1.win 5).blk t).view.emb j) 1) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : ((cfg1.win 4).blk t).view.emb (ix2 (0 : Fin 1) (j 1)) = ix2 (0 : Fin 1) ((((cfg1.win 5).blk t).view.emb j) 1) := by
    funext a; apply Fin.ext
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  show normRelu (M := 5000) (N := 128) (iblk1 V c 0 t) (iblk1 V c 1 t) (iblk1 V c 2 t) (iblk1 V c 3 t) (iblk1 V c 4 t) j
    = normRelu (M := 50000) (N := 128) (V c main_v48) (V c main_v62) (V c main_v63) (V c main_v64) (V c main_v65) (((cfg1.win 5).blk t).view.emb j)
  refine normRelu_congr _ _ _ _ _ _ _ _ _ _ j (((cfg1.win 5).blk t).view.emb j) ?_ ?_ ?_ ?_ ?_
  · show V c main_v48 (((cfg1.win 0).blk t).view.emb j) = V c main_v48 (((cfg1.win 5).blk t).view.emb j)
    exact congrArg (V c main_v48) h0
  · show V c main_v62 (((cfg1.win 1).blk t).view.emb (ix2 (0 : Fin 1) (j 1))) = V c main_v62 (ix2 (0 : Fin 1) ((((cfg1.win 5).blk t).view.emb j) 1))
    exact congrArg (V c main_v62) h1
  · show V c main_v63 (((cfg1.win 2).blk t).view.emb (ix2 (0 : Fin 1) (j 1))) = V c main_v63 (ix2 (0 : Fin 1) ((((cfg1.win 5).blk t).view.emb j) 1))
    exact congrArg (V c main_v63) h2
  · show V c main_v64 (((cfg1.win 3).blk t).view.emb (ix2 (0 : Fin 1) (j 1))) = V c main_v64 (ix2 (0 : Fin 1) ((((cfg1.win 5).blk t).view.emb j) 1))
    exact congrArg (V c main_v64) h3
  · show V c main_v65 (((cfg1.win 4).blk t).view.emb (ix2 (0 : Fin 1) (j 1))) = V c main_v65 (ix2 (0 : Fin 1) ((((cfg1.win 5).blk t).view.emb j) 1))
    exact congrArg (V c main_v65) h4

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v66).slice (win1_5.rect t)).set ↔ _
  rw [View.set_slice_whole, Rect.mem_set_unit]
  exact Iff.rfl

/-- After the launch the output array is the normalised, clipped array: row r lies in block r / 5000. -/
theorem final (c : Dev nD) :
    (dat1 V c).arrAt 5 cfg1.N = normRelu (M := 50000) (N := 128) (V c main_v48) (V c main_v62) (V c main_v63) (V c main_v64) (V c main_v65) :=
  (dat1 V c).arrAt_eq_of_cover 5 _ (fun t _ => flushed_eq V c t) fun i => by
    have hi0 : (i 0).val < 50000 := (i 0).isLt
    have hi1 : (i 1).val < 128 := (i 1).isLt
    have hN : cfg1.N = 10 := N_1
    refine ⟨⟨(i 0).val / 5000, by rw [hN]; omega⟩, flush1_5 _, ?_⟩
    rw [mem_blk]
    obtain ⟨e0, e1, e2, e3, e4, e5, e6, e7, e8, e9, e10, e11⟩ := idx_facts ⟨(i 0).val / 5000, by rw [hN]; omega⟩
    intro a
    match a with
    | ⟨0, _⟩ =>
      show win1_5.index _ (0 : Fin 2) * 5000 ≤ (i 0).val ∧ (i 0).val < win1_5.index _ (0 : Fin 2) * 5000 + 5000
      rw [e10]; show (i 0).val / 5000 * 5000 ≤ (i 0).val ∧ (i 0).val < (i 0).val / 5000 * 5000 + 5000; omega
    | ⟨1, _⟩ =>
      show win1_5.index _ (1 : Fin 2) * 128 ≤ (i 1).val ∧ (i 1).val < win1_5.index _ (1 : Fin 2) * 128 + 128
      rw [e11]; omega

end Cert.KernelIdeal.Norm1

end
-- ==== Proof.Norm3.lean ====
/-
  The second normalisation launch: the second layer's aggregate, centred, scaled and clipped at zero.
  The launch walks ten blocks of 5000 rows. At each point the body reads the point's block of rows and the four
  one-row matrices (mean, inverse deviation, scale, shift) whole, and writes the block of
  max((h − μ) · s · γ + β, 0); the output block sits at the rows of the input block, so what point t writes back is
  block t of ONE function of the five arrays, and the ten blocks cover the output array.
-/
import proofs.«162351_j36601711296804_1_alg».proof.Proof.Gen.KernelIdeal.Frame
import proofs.«162351_j36601711296804_1_alg».proof.Proof.Payloads
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Norm3

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks of input and output move together with the point, each of the
    four one-row matrices is one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 4000000 in
/-- What point `t` writes back is block `t` of the normalised, clipped array of the five arrays as the launch finds them. -/
theorem flushed_eq (c : Dev nD) (t : Fin cfg3.N) :
    (dat3 V c).flushed 5 t = ((cfg3.win 5).blk t).view.read (Elt Ideal)
      (normRelu (M := 50000) (N := 128) (V c main_v83) (V c main_v97) (V c main_v98) (V c main_v99) (V c main_v100)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  rw [Pay.k3_pay1_eq]
  obtain ⟨e0, e1, e2, e3, e4, e5, e6, e7, e8, e9, e10, e11⟩ := idx_facts t
  funext j
  have h0 : ((cfg3.win 0).blk t).view.emb j = (((cfg3.win 5).blk t).view.emb j) := by
    funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * (j 1).val = win3_5.index t (1 : Fin 2) * 128 + 1 * (j 1).val; omega
  have h1 : ((cfg3.win 1).blk t).view.emb (ix2 (0 : Fin 1) (j 1)) = ix2 (0 : Fin 1) ((((cfg3.win 5).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_5.index t (1 : Fin 2) * 128 + 1 * (j 1).val; omega
  have h2 : ((cfg3.win 2).blk t).view.emb (ix2 (0 : Fin 1) (j 1)) = ix2 (0 : Fin 1) ((((cfg3.win 5).blk t).view.emb j) 1) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_5.index t (1 : Fin 2) * 128 + 1 * (j 1).val; omega
  have h3 : ((cfg3.win 3).blk t).view.emb (ix2 (0 : Fin 1) (j 1)) = ix2 (0 : Fin 1) ((((cfg3.win 5).blk t).view.emb j) 1) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  have h4 : ((cfg3.win 4).blk t).view.emb (ix2 (0 : Fin 1) (j 1)) = ix2 (0 : Fin 1) ((((cfg3.win 5).blk t).view.emb j) 1) := by
    funext a; apply Fin.ext
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega
  show normRelu (M := 5000) (N := 128) (iblk3 V c 0 t) (iblk3 V c 1 t) (iblk3 V c 2 t) (iblk3 V c 3 t) (iblk3 V c 4 t) j
    = normRelu (M := 50000) (N := 128) (V c main_v83) (V c main_v97) (V c main_v98) (V c main_v99) (V c main_v100) (((cfg3.win 5).blk t).view.emb j)
  refine normRelu_congr _ _ _ _ _ _ _ _ _ _ j (((cfg3.win 5).blk t).view.emb j) ?_ ?_ ?_ ?_ ?_
  · show V c main_v83 (((cfg3.win 0).blk t).view.emb j) = V c main_v83 (((cfg3.win 5).blk t).view.emb j)
    exact congrArg (V c main_v83) h0
  · show V c main_v97 (((cfg3.win 1).blk t).view.emb (ix2 (0 : Fin 1) (j 1))) = V c main_v97 (ix2 (0 : Fin 1) ((((cfg3.win 5).blk t).view.emb j) 1))
    exact congrArg (V c main_v97) h1
  · show V c main_v98 (((cfg3.win 2).blk t).view.emb (ix2 (0 : Fin 1) (j 1))) = V c main_v98 (ix2 (0 : Fin 1) ((((cfg3.win 5).blk t).view.emb j) 1))
    exact congrArg (V c main_v98) h2
  · show V c main_v99 (((cfg3.win 3).blk t).view.emb (ix2 (0 : Fin 1) (j 1))) = V c main_v99 (ix2 (0 : Fin 1) ((((cfg3.win 5).blk t).view.emb j) 1))
    exact congrArg (V c main_v99) h3
  · show V c main_v100 (((cfg3.win 4).blk t).view.emb (ix2 (0 : Fin 1) (j 1))) = V c main_v100 (ix2 (0 : Fin 1) ((((cfg3.win 5).blk t).view.emb j) 1))
    exact congrArg (V c main_v100) h4

/-- An index of the output array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v101).slice (win3_5.rect t)).set ↔ _
  rw [View.set_slice_whole, Rect.mem_set_unit]
  exact Iff.rfl

/-- After the launch the output array is the normalised, clipped array: row r lies in block r / 5000. -/
theorem final (c : Dev nD) :
    (dat3 V c).arrAt 5 cfg3.N = normRelu (M := 50000) (N := 128) (V c main_v83) (V c main_v97) (V c main_v98) (V c main_v99) (V c main_v100) :=
  (dat3 V c).arrAt_eq_of_cover 5 _ (fun t _ => flushed_eq V c t) fun i => by
    have hi0 : (i 0).val < 50000 := (i 0).isLt
    have hi1 : (i 1).val < 128 := (i 1).isLt
    have hN : cfg3.N = 10 := N_3
    refine ⟨⟨(i 0).val / 5000, by rw [hN]; omega⟩, flush3_5 _, ?_⟩
    rw [mem_blk]
    obtain ⟨e0, e1, e2, e3, e4, e5, e6, e7, e8, e9, e10, e11⟩ := idx_facts ⟨(i 0).val / 5000, by rw [hN]; omega⟩
    intro a
    match a with
    | ⟨0, _⟩ =>
      show win3_5.index _ (0 : Fin 2) * 5000 ≤ (i 0).val ∧ (i 0).val < win3_5.index _ (0 : Fin 2) * 5000 + 5000
      rw [e10]; show (i 0).val / 5000 * 5000 ≤ (i 0).val ∧ (i 0).val < (i 0).val / 5000 * 5000 + 5000; omega
    | ⟨1, _⟩ =>
      show win3_5.index _ (1 : Fin 2) * 128 ≤ (i 1).val ∧ (i 1).val < win3_5.index _ (1 : Fin 2) * 128 + 128
      rw [e11]; omega

end Cert.KernelIdeal.Norm3

end
-- ==== Proof.RefAlgebra.lean ====
/-
  The reference's two non-shared computations, on the extended reals, as the same two functions the kernel bodies
  compute (rows times columns; column-wise normalisation and positive part):

  * the host's matrix product contracts the one shared axis, so its element (r, c) is the sum over k of x(r, k) · w(k, c);
  * the host's normalisation chain broadcasts each per-column vector first to one row and then over all rows, so at
    (r, c) it reads the vector at c — exactly what the one-row matrix obtained by adding a unit axis reads at (0, c).
-/
import proofs.«162351_j36601711296804_1_alg».proof.Proof.Gen.ReferenceIdeal
import proofs.«162351_j36601711296804_1_alg».proof.Proof.Payloads

noncomputable section

open scoped BigOperators
open Idealize.ShloMosaic Idealize.ShloMosaic.ValueIdx

namespace Cert.ReferenceIdeal.Alg

open Cert.ReferenceIdeal Cert.Gcn

/-! ## The host's matrix products -/

/-- The left index of the product keeps the output's row … -/
theorem lhs128_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- … and the right index keeps the output's column. -/
theorem rhs128_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's matrix product onto 128 columns is rows times columns: its one contracted axis re-indexed by its coordinate. -/
theorem dot128_eq (x : FVec Ideal S50000x128 .f32) (w : FVec Ideal S128x128 .f32) :
    Host.dotGeneral (F := Ideal) dot_S50000x128_S128x128_S50000x128_1_0_0_1_n_n none x w = rowsTimes (M := 50000) (K := 128) (N := 128) x w := by
  funext j
  obtain ⟨r, c, rfl⟩ : ∃ (r : Fin 50000) (c : Fin 128), j = ix2 r c := ⟨j 0, j 1, eq_ix2 j⟩
  rw [rowsTimes_apply]
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c) ((contrEquiv1 dot_S50000x128_S128x128_S50000x128_1_0_0_1_n_n 128 rfl rfl).symm k) = ix2 r k :=
    funext fun a => Fin.ext (by
      match a with
      | ⟨0, _⟩ => exact lhs128_0 _ _
      | ⟨1, _⟩ => exact (dot_S50000x128_S128x128_S50000x128_1_0_0_1_n_n.lhsIdx_val_of_single rfl _ _).trans hk)
  have er : dot_S50000x128_S128x128_S50000x128_1_0_0_1_n_n.rhsIdx (ix2 r c) ((contrEquiv1 dot_S50000x128_S128x128_S50000x128_1_0_0_1_n_n 128 rfl rfl).symm k) = ix2 k c :=
    funext fun a => Fin.ext (by
      match a with
      | ⟨0, _⟩ => exact (dot_S50000x128_S128x128_S50000x128_1_0_0_1_n_n.rhsIdx_val_of_single rfl _ _).trans hk
      | ⟨1, _⟩ => exact rhs128_1 _ _)
  rw [el, er]

/-- The left index of the product keeps the output's row … -/
theorem lhs40_0 (i : S50000x40.Idx) (q : dot_S50000x128_S128x40_S50000x40_1_0_0_1_n_n.contr.Idx) : (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
/-- … and the right index keeps the output's column. -/
theorem rhs40_1 (i : S50000x40.Idx) (q : dot_S50000x128_S128x40_S50000x40_1_0_0_1_n_n.contr.Idx) : (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The host's matrix product onto 40 columns is rows times columns: its one contracted axis re-indexed by its coordinate. -/
theorem dot40_eq (x : FVec Ideal S50000x128 .f32) (w : FVec Ideal S128x40 .f32) :
    Host.dotGeneral (F := Ideal) dot_S50000x128_S128x40_S50000x40_1_0_0_1_n_n none x w = rowsTimes (M := 50000) (K := 128) (N := 40) x w := by
  funext j
  obtain ⟨r, c, rfl⟩ : ∃ (r : Fin 50000) (c : Fin 40), j = ix2 r c := ⟨j 0, j 1, eq_ix2 j⟩
  rw [rowsTimes_apply]
  simp only [Host.dotGeneral]
  rw [Ideal.dotGeneral_apply, ← Equiv.sum_comp (contrEquiv1 dot_S50000x128_S128x40_S50000x40_1_0_0_1_n_n 128 rfl rfl).symm]
  refine Finset.sum_congr rfl fun k _ => ?_
  have hk := contrEquiv1_symm_val dot_S50000x128_S128x40_S50000x40_1_0_0_1_n_n 128 rfl rfl k
  have el : dot_S50000x128_S128x40_S50000x40_1_0_0_1_n_n.lhsIdx (ix2 r c) ((contrEquiv1 dot_S50000x128_S128x40_S50000x40_1_0_0_1_n_n 128 rfl rfl).symm k) = ix2 r k :=
    funext fun a => Fin.ext (by
      match a with
      | ⟨0, _⟩ => exact lhs40_0 _ _
      | ⟨1, _⟩ => exact (dot_S50000x128_S128x40_S50000x40_1_0_0_1_n_n.lhsIdx_val_of_single rfl _ _).trans hk)
  have er : dot_S50000x128_S128x40_S50000x40_1_0_0_1_n_n.rhsIdx (ix2 r c) ((contrEquiv1 dot_S50000x128_S128x40_S50000x40_1_0_0_1_n_n 128 rfl rfl).symm k) = ix2 k c :=
    funext fun a => Fin.ext (by
      match a with
      | ⟨0, _⟩ => exact (dot_S50000x128_S128x40_S50000x40_1_0_0_1_n_n.rhsIdx_val_of_single rfl _ _).trans hk
      | ⟨1, _⟩ => exact rhs40_1 _ _)
  rw [el, er]

/-! ## The host's normalisation chain -/

/-- A per-column vector broadcast to one row and then over all rows reads, at (r, c), the vector at c. -/
theorem col_bcast_apply (x : S128.Idx → EReal) (hb1 : S128.BroadcastsInDim S1x128 ![1]) (hb2 : S1x128.BroadcastsInDim S50000x128 ![0, 1])
    (r : Fin 50000) (c : Fin 128) :
    broadcastInDim S50000x128 ![0, 1] hb2 (broadcastInDim S1x128 ![1] hb1 x) (ix2 r c) = x (ix1 c) := by
  refine (broadcastInDim_apply ![0, 1] hb2 _ (ix2 r c) (ix2 (0 : Fin 1) c) fun a => ?_).trans
    (broadcastInDim_apply ![1] hb1 x (ix2 (0 : Fin 1) c) (ix1 c) fun a => ?_)
  · match a with
    | ⟨0, _⟩ => rfl
    | ⟨1, _⟩ => rfl
  · match a with
    | ⟨0, _⟩ => rfl

/-- The host's chain — subtract the mean, scale by the inverse deviation, by γ, shift by β, clip at zero — is the
    normalisation of `normRelu` at the four vectors given a unit leading axis. -/
theorem norm_chain (H : S50000x128.Idx → EReal) (MU IS G B : S128.Idx → EReal)
    (hb1 : S128.BroadcastsInDim S1x128 ![1]) (hb2 : S1x128.BroadcastsInDim S50000x128 ![0, 1]) (hb0 : S_.BroadcastsInDim S50000x128 ![])
    (h1 h2 h3 h4 : S128.ShapeCasts S1x128) :
    maximumf (F := Ideal) (φ := .f32)
      (addf (F := Ideal) (φ := .f32) (mulf (F := Ideal) (φ := .f32) (mulf (F := Ideal) (φ := .f32) (subf (F := Ideal) (φ := .f32) H (broadcastInDim S50000x128 ![0, 1] hb2 (broadcastInDim S1x128 ![1] hb1 MU)))
          (broadcastInDim S50000x128 ![0, 1] hb2 (broadcastInDim S1x128 ![1] hb1 IS)))
          (broadcastInDim S50000x128 ![0, 1] hb2 (broadcastInDim S1x128 ![1] hb1 G)))
        (broadcastInDim S50000x128 ![0, 1] hb2 (broadcastInDim S1x128 ![1] hb1 B)))
      (broadcastInDim S50000x128 ![] hb0 (constant (F := Ideal) S_ .f32 0x00000000#32))
    = normRelu (M := 50000) (N := 128) H (shapeCast S1x128 MU h1) (shapeCast S1x128 IS h2) (shapeCast S1x128 G h3) (shapeCast S1x128 B h4) := by
  funext j
  obtain ⟨r, c, rfl⟩ : ∃ (r : Fin 50000) (c : Fin 128), j = ix2 r c := ⟨j 0, j 1, eq_ix2 j⟩
  rw [normRelu_apply, shapeCast_a_1a_apply MU h1, shapeCast_a_1a_apply IS h2, shapeCast_a_1a_apply G h3, shapeCast_a_1a_apply B h4]
  simp only [maximumf_apply, addf_apply, mulf_apply, subf_apply]
  rw [col_bcast_apply MU hb1 hb2 r c, col_bcast_apply IS hb1 hb2 r c, col_bcast_apply G hb1 hb2 r c, col_bcast_apply B hb1 hb2 r c]
  rfl

end Cert.ReferenceIdeal.Alg

end
-- ==== Proof.SimRun.lean ====
/-
  The two runs compared end to end. From memories that agree on the twelve arguments, the contents of the kernel
  program's buffers at each of its segment boundaries are matched with the contents of the reference's buffers after
  the corresponding operations: the shared host stretches take agreeing buffers to agreeing buffers; each projection
  launch leaves rows times columns, which is the host's matrix product; each normalisation launch leaves the
  normalised, clipped aggregate, which is the host's chain of broadcasts, products, sum and maximum. At the end the
  kernel program's result buffer and the reference's hold the same array.
-/
import proofs.«162351_j36601711296804_1_alg».proof.Proof.SimPre
import proofs.«162351_j36601711296804_1_alg».proof.Proof.SimH1
import proofs.«162351_j36601711296804_1_alg».proof.Proof.SimH3
import proofs.«162351_j36601711296804_1_alg».proof.Proof.SimH5
import proofs.«162351_j36601711296804_1_alg».proof.Proof.SimR
import proofs.«162351_j36601711296804_1_alg».proof.Proof.Proj0
import proofs.«162351_j36601711296804_1_alg».proof.Proof.Proj2
import proofs.«162351_j36601711296804_1_alg».proof.Proof.Proj4
import proofs.«162351_j36601711296804_1_alg».proof.Proof.Norm1
import proofs.«162351_j36601711296804_1_alg».proof.Proof.Norm3
import proofs.«162351_j36601711296804_1_alg».proof.Proof.RefAlgebra

set_option maxRecDepth 16384

noncomputable section

open Idealize.ShloMosaic Idealize.ShloMosaic.TcCoe Idealize.SL.Sem Idealize.ShloMosaic.StableHlo

namespace Cert.Sim

open Cert.KernelIdeal Cert.KernelIdeal.Gen

open Cert.Gcn

variable (m : (ℓ : Loc nD τ sig) → Buf (Elt Ideal) ℓ) (ρ : Dev nD → PrngReg)
variable (m' : (ℓ : Loc R.nD R.τ R.sig) → Buf (Elt Ideal) ℓ) (c : Dev nD)

/-- The two memories agree on the twelve arguments. -/
def Agree : Prop :=
  m' ((c.tc : Thread R.nD R.τ).loc R.main_arg0) = m ((c.tc : Thread nD τ).loc main_arg0)
    ∧ m' ((c.tc : Thread R.nD R.τ).loc R.main_arg1) = m ((c.tc : Thread nD τ).loc main_arg1)
    ∧ m' ((c.tc : Thread R.nD R.τ).loc R.main_arg2) = m ((c.tc : Thread nD τ).loc main_arg2)
    ∧ m' ((c.tc : Thread R.nD R.τ).loc R.main_arg3) = m ((c.tc : Thread nD τ).loc main_arg3)
    ∧ m' ((c.tc : Thread R.nD R.τ).loc R.main_arg4) = m ((c.tc : Thread nD τ).loc main_arg4)
    ∧ m' ((c.tc : Thread R.nD R.τ).loc R.main_arg5) = m ((c.tc : Thread nD τ).loc main_arg5)
    ∧ m' ((c.tc : Thread R.nD R.τ).loc R.main_arg6) = m ((c.tc : Thread nD τ).loc main_arg6)
    ∧ m' ((c.tc : Thread R.nD R.τ).loc R.main_arg7) = m ((c.tc : Thread nD τ).loc main_arg7)
    ∧ m' ((c.tc : Thread R.nD R.τ).loc R.main_arg8) = m ((c.tc : Thread nD τ).loc main_arg8)
    ∧ m' ((c.tc : Thread R.nD R.τ).loc R.main_arg9) = m ((c.tc : Thread nD τ).loc main_arg9)
    ∧ m' ((c.tc : Thread R.nD R.τ).loc R.main_arg10) = m ((c.tc : Thread nD τ).loc main_arg10)
    ∧ m' ((c.tc : Thread R.nD R.τ).loc R.main_arg11) = m ((c.tc : Thread nD τ).loc main_arg11)

/-- At launch the arguments' buffers agree. -/
theorem args0 (hag : Agree m m' c) : Args (W0 m ρ c) (U0 m' c) where
  a0 := (hag.1).symm
  a1 := (hag.2.1).symm
  a2 := (hag.2.2.1).symm
  a3 := (hag.2.2.2.1).symm
  a4 := (hag.2.2.2.2.1).symm
  a5 := (hag.2.2.2.2.2.1).symm
  a6 := (hag.2.2.2.2.2.2.1).symm
  a7 := (hag.2.2.2.2.2.2.2.1).symm
  a8 := (hag.2.2.2.2.2.2.2.2.1).symm
  a9 := (hag.2.2.2.2.2.2.2.2.2.1).symm
  a10 := (hag.2.2.2.2.2.2.2.2.2.2.1).symm
  a11 := (hag.2.2.2.2.2.2.2.2.2.2.2).symm

/-- After the shared first stretch (the index arrays and the per-edge weights) the invariant holds. -/
theorem inv43 (hag : Agree m m' c) : Inv (W3 m ρ c) (U43 m' c) := by
  have e : W3 m ρ c = after hostOps0_2 (after hostOps0_1 (after (hostOps0.drop 7) (after (hostOps0.take 7) (W0 m ρ c)))) := by
    show after hostOps0_2 (after hostOps0_1 (after hostOps0 (W0 m ρ c))) = _
    rw [after_split hostOps0 7]
  rw [e]
  exact pre43 _ _ (pre7 _ _ (args0 m ρ m' c hag))

/-! ## The launches leave the invariant's buffers as they were -/

/-- The first projection reads the features and the first weight matrix and writes neither. -/
theorem k_r0 (VR : Valuation R.τ R.sig (Elt Ideal)) (h : Inv (W3 m ρ c) VR) : Inv (W4 m ρ c) VR where
  a0 := ((W4_arr m ρ c 0).trans (((dat0 (V3 m ρ) c).arrAt_in 0 rfl _).trans (A_eq0 (V3 m ρ) c 0))).trans h.a0
  a1 := (W4_of_ne m ρ c main_arg1 (by decide)).trans h.a1
  a2 := ((W4_arr m ρ c 1).trans (((dat0 (V3 m ρ) c).arrAt_in 1 rfl _).trans (A_eq0 (V3 m ρ) c 1))).trans h.a2
  a3 := (W4_of_ne m ρ c main_arg3 (by decide)).trans h.a3
  a4 := (W4_of_ne m ρ c main_arg4 (by decide)).trans h.a4
  a5 := (W4_of_ne m ρ c main_arg5 (by decide)).trans h.a5
  a6 := (W4_of_ne m ρ c main_arg6 (by decide)).trans h.a6
  a7 := (W4_of_ne m ρ c main_arg7 (by decide)).trans h.a7
  a8 := (W4_of_ne m ρ c main_arg8 (by decide)).trans h.a8
  a9 := (W4_of_ne m ρ c main_arg9 (by decide)).trans h.a9
  a10 := (W4_of_ne m ρ c main_arg10 (by decide)).trans h.a10
  a11 := (W4_of_ne m ρ c main_arg11 (by decide)).trans h.a11
  v3 := (W4_of_ne m ρ c main_v3 (by decide)).trans h.v3
  v6 := (W4_of_ne m ρ c main_v6 (by decide)).trans h.v6
  v31 := (W4_of_ne m ρ c main_v31 (by decide)).trans h.v31

/-- The first normalisation touches no buffer of the invariant. -/
theorem k_r1 (VR : Valuation R.τ R.sig (Elt Ideal)) (h : Inv (W5 m ρ c) VR) : Inv (W6 m ρ c) VR where
  a0 := (W6_of_ne m ρ c main_arg0 (by decide)).trans h.a0
  a1 := (W6_of_ne m ρ c main_arg1 (by decide)).trans h.a1
  a2 := (W6_of_ne m ρ c main_arg2 (by decide)).trans h.a2
  a3 := (W6_of_ne m ρ c main_arg3 (by decide)).trans h.a3
  a4 := (W6_of_ne m ρ c main_arg4 (by decide)).trans h.a4
  a5 := (W6_of_ne m ρ c main_arg5 (by decide)).trans h.a5
  a6 := (W6_of_ne m ρ c main_arg6 (by decide)).trans h.a6
  a7 := (W6_of_ne m ρ c main_arg7 (by decide)).trans h.a7
  a8 := (W6_of_ne m ρ c main_arg8 (by decide)).trans h.a8
  a9 := (W6_of_ne m ρ c main_arg9 (by decide)).trans h.a9
  a10 := (W6_of_ne m ρ c main_arg10 (by decide)).trans h.a10
  a11 := (W6_of_ne m ρ c main_arg11 (by decide)).trans h.a11
  v3 := (W6_of_ne m ρ c main_v3 (by decide)).trans h.v3
  v6 := (W6_of_ne m ρ c main_v6 (by decide)).trans h.v6
  v31 := (W6_of_ne m ρ c main_v31 (by decide)).trans h.v31

/-- The second projection reads the second weight matrix and does not write it. -/
theorem k_r2 (VR : Valuation R.τ R.sig (Elt Ideal)) (h : Inv (W6 m ρ c) VR) : Inv (W7 m ρ c) VR where
  a0 := (W7_of_ne m ρ c main_arg0 (by decide)).trans h.a0
  a1 := (W7_of_ne m ρ c main_arg1 (by decide)).trans h.a1
  a2 := (W7_of_ne m ρ c main_arg2 (by decide)).trans h.a2
  a3 := (W7_of_ne m ρ c main_arg3 (by decide)).trans h.a3
  a4 := ((W7_arr m ρ c 1).trans (((dat2 (V6 m ρ) c).arrAt_in 1 rfl _).trans (A_eq2 (V6 m ρ) c 1))).trans h.a4
  a5 := (W7_of_ne m ρ c main_arg5 (by decide)).trans h.a5
  a6 := (W7_of_ne m ρ c main_arg6 (by decide)).trans h.a6
  a7 := (W7_of_ne m ρ c main_arg7 (by decide)).trans h.a7
  a8 := (W7_of_ne m ρ c main_arg8 (by decide)).trans h.a8
  a9 := (W7_of_ne m ρ c main_arg9 (by decide)).trans h.a9
  a10 := (W7_of_ne m ρ c main_arg10 (by decide)).trans h.a10
  a11 := (W7_of_ne m ρ c main_arg11 (by decide)).trans h.a11
  v3 := (W7_of_ne m ρ c main_v3 (by decide)).trans h.v3
  v6 := (W7_of_ne m ρ c main_v6 (by decide)).trans h.v6
  v31 := (W7_of_ne m ρ c main_v31 (by decide)).trans h.v31

/-- The second normalisation touches no buffer of the invariant. -/
theorem k_r3 (VR : Valuation R.τ R.sig (Elt Ideal)) (h : Inv (W8 m ρ c) VR) : Inv (W9 m ρ c) VR where
  a0 := (W9_of_ne m ρ c main_arg0 (by decide)).trans h.a0
  a1 := (W9_of_ne m ρ c main_arg1 (by decide)).trans h.a1
  a2 := (W9_of_ne m ρ c main_arg2 (by decide)).trans h.a2
  a3 := (W9_of_ne m ρ c main_arg3 (by decide)).trans h.a3
  a4 := (W9_of_ne m ρ c main_arg4 (by decide)).trans h.a4
  a5 := (W9_of_ne m ρ c main_arg5 (by decide)).trans h.a5
  a6 := (W9_of_ne m ρ c main_arg6 (by decide)).trans h.a6
  a7 := (W9_of_ne m ρ c main_arg7 (by decide)).trans h.a7
  a8 := (W9_of_ne m ρ c main_arg8 (by decide)).trans h.a8
  a9 := (W9_of_ne m ρ c main_arg9 (by decide)).trans h.a9
  a10 := (W9_of_ne m ρ c main_arg10 (by decide)).trans h.a10
  a11 := (W9_of_ne m ρ c main_arg11 (by decide)).trans h.a11
  v3 := (W9_of_ne m ρ c main_v3 (by decide)).trans h.v3
  v6 := (W9_of_ne m ρ c main_v6 (by decide)).trans h.v6
  v31 := (W9_of_ne m ρ c main_v31 (by decide)).trans h.v31

/-- The third projection reads the third weight matrix and does not write it. -/
theorem k_r4 (VR : Valuation R.τ R.sig (Elt Ideal)) (h : Inv (W9 m ρ c) VR) : Inv (W10 m ρ c) VR where
  a0 := (W10_of_ne m ρ c main_arg0 (by decide)).trans h.a0
  a1 := (W10_of_ne m ρ c main_arg1 (by decide)).trans h.a1
  a2 := (W10_of_ne m ρ c main_arg2 (by decide)).trans h.a2
  a3 := (W10_of_ne m ρ c main_arg3 (by decide)).trans h.a3
  a4 := (W10_of_ne m ρ c main_arg4 (by decide)).trans h.a4
  a5 := (W10_of_ne m ρ c main_arg5 (by decide)).trans h.a5
  a6 := ((W10_arr m ρ c 1).trans (((dat4 (V9 m ρ) c).arrAt_in 1 rfl _).trans (A_eq4 (V9 m ρ) c 1))).trans h.a6
  a7 := (W10_of_ne m ρ c main_arg7 (by decide)).trans h.a7
  a8 := (W10_of_ne m ρ c main_arg8 (by decide)).trans h.a8
  a9 := (W10_of_ne m ρ c main_arg9 (by decide)).trans h.a9
  a10 := (W10_of_ne m ρ c main_arg10 (by decide)).trans h.a10
  a11 := (W10_of_ne m ρ c main_arg11 (by decide)).trans h.a11
  v3 := (W10_of_ne m ρ c main_v3 (by decide)).trans h.v3
  v6 := (W10_of_ne m ρ c main_v6 (by decide)).trans h.v6
  v31 := (W10_of_ne m ρ c main_v31 (by decide)).trans h.v31

/-! ## The five launches against the reference's operations -/

/-- The first projection's output is the reference's first matrix product. -/
theorem x44 (h : Inv (W3 m ρ c) (U43 m' c)) :
    W4 m ρ c (Proc.devRef .tc main_v32) = U44 m' c (Proc.devRef .tc R.main_v32) := by
  have eK := (W4_arr m ρ c 2).trans (Proj0.final (V3 m ρ) c)
  have eR : U44 m' c (Proc.devRef .tc R.main_v32) = rowsTimes (M := 50000) (K := 128) (N := 128) (U43 m' c (Proc.devRef .tc R.main_arg0)) (U43 m' c (Proc.devRef .tc R.main_arg2)) :=
    (r_dot1 (U43 m' c)).trans (Cert.ReferenceIdeal.Alg.dot128_eq _ _)
  refine eK.trans (Eq.trans ?_ eR.symm)
  rw [← h.a0, ← h.a2]

/-- The first normalisation's output is the reference's first layer of activations. -/
theorem x96 (h : Inv (W4 m ρ c) (U44 m' c)) (hx : W4 m ρ c (Proc.devRef .tc main_v32) = U44 m' c (Proc.devRef .tc R.main_v32)) :
    W6 m ρ c (Proc.devRef .tc main_v66) = U96 m' c (Proc.devRef .tc R.main_v74) := by
  have eK := (W6_arr m ρ c 5).trans (Norm1.final (V5 m ρ) c)
  have e0 : W5 m ρ c (Proc.devRef .tc main_v48) = U84 m' c (Proc.devRef .tc R.main_v48) := h1_agg (W4 m ρ c) (U44 m' c) h hx
  have e1 := h1_mean (W4 m ρ c) (U44 m' c) h hx
  have e2 := h1_invstd (W4 m ρ c) (U44 m' c) h hx
  have e3 := h1_gamma (W4 m ρ c) (U44 m' c) h
  have e4 := h1_beta (W4 m ρ c) (U44 m' c) h
  have ec : U84 m' c (Proc.devRef .tc R.main_v61) = subf (F := Ideal) (φ := .f32) (U84 m' c (Proc.devRef .tc R.main_v48)) (broadcastInDim R.S50000x128 ![0, 1] R.bcast_S1x128_S50000x128_0_1 (broadcastInDim R.S1x128 ![1] R.bcast_S128_S1x128_1 (U84 m' c (Proc.devRef .tc R.main_v51)))) := h1_centered (U44 m' c)
  have eR : U96 m' c (Proc.devRef .tc R.main_v74) = maximumf (F := Ideal) (φ := .f32) (s := R.S50000x128)
        (addf (F := Ideal) (φ := .f32) (s := R.S50000x128)
          (mulf (F := Ideal) (φ := .f32) (s := R.S50000x128)
            (mulf (F := Ideal) (φ := .f32) (s := R.S50000x128) (U84 m' c (Proc.devRef .tc R.main_v61)) (broadcastInDim R.S50000x128 ![0, 1] R.bcast_S1x128_S50000x128_0_1 (broadcastInDim R.S1x128 ![1] R.bcast_S128_S1x128_1 (U84 m' c (Proc.devRef .tc R.main_v64)))))
            (broadcastInDim R.S50000x128 ![0, 1] R.bcast_S1x128_S50000x128_0_1 (broadcastInDim R.S1x128 ![1] R.bcast_S128_S1x128_1 (U84 m' c (Proc.devRef .tc R.main_arg8)))))
          (broadcastInDim R.S50000x128 ![0, 1] R.bcast_S1x128_S50000x128_0_1 (broadcastInDim R.S1x128 ![1] R.bcast_S128_S1x128_1 (U84 m' c (Proc.devRef .tc R.main_arg9)))))
        (broadcastInDim R.S50000x128 ![] R.bcast_S_S50000x128 (constant (F := Ideal) R.S_ .f32 0x00000000#32)) := r_norm1 (U84 m' c)
  have five : ∀ (a a' : S50000x128.Idx → EReal) (b b' d d' e e' f f' : S1x128.Idx → EReal), a = a' → b = b' → d = d' → e = e' → f = f' →
      Cert.Gcn.normRelu (M := 50000) (N := 128) a b d e f = Cert.Gcn.normRelu (M := 50000) (N := 128) a' b' d' e' f' := by
    intro a a' b b' d d' e e' f f' h0 h1 h2 h3 h4
    rw [h0, h1, h2, h3, h4]
  refine eK.trans (Eq.trans (five _ _ _ _ _ _ _ _ _ _ e0 e1 e2 e3 e4) (Eq.trans ?_ eR.symm))
  rw [ec]
  exact (Cert.ReferenceIdeal.Alg.norm_chain (U84 m' c (Proc.devRef .tc R.main_v48)) (U84 m' c (Proc.devRef .tc R.main_v51)) (U84 m' c (Proc.devRef .tc R.main_v64)) (U84 m' c (Proc.devRef .tc R.main_arg8)) (U84 m' c (Proc.devRef .tc R.main_arg9))
    R.bcast_S128_S1x128_1 R.bcast_S1x128_S50000x128_0_1 R.bcast_S_S50000x128
    shapeCasts_S128_S1x128 shapeCasts_S128_S1x128 shapeCasts_S128_S1x128 shapeCasts_S128_S1x128).symm

/-- The second projection's output is the reference's second matrix product. -/
theorem x97 (h : Inv (W6 m ρ c) (U96 m' c)) (hx : W6 m ρ c (Proc.devRef .tc main_v66) = U96 m' c (Proc.devRef .tc R.main_v74)) :
    W7 m ρ c (Proc.devRef .tc main_v67) = U97 m' c (Proc.devRef .tc R.main_v75) := by
  have eK := (W7_arr m ρ c 2).trans (Proj2.final (V6 m ρ) c)
  have eR : U97 m' c (Proc.devRef .tc R.main_v75) = rowsTimes (M := 50000) (K := 128) (N := 128) (U96 m' c (Proc.devRef .tc R.main_v74)) (U96 m' c (Proc.devRef .tc R.main_arg4)) :=
    (r_dot2 (U96 m' c)).trans (Cert.ReferenceIdeal.Alg.dot128_eq _ _)
  refine eK.trans (Eq.trans ?_ eR.symm)
  rw [← hx, ← h.a4]

/-- The second normalisation's output is the reference's second layer of activations. -/
theorem x149 (h : Inv (W7 m ρ c) (U97 m' c)) (hx : W7 m ρ c (Proc.devRef .tc main_v67) = U97 m' c (Proc.devRef .tc R.main_v75)) :
    W9 m ρ c (Proc.devRef .tc main_v101) = U149 m' c (Proc.devRef .tc R.main_v117) := by
  have eK := (W9_arr m ρ c 5).trans (Norm3.final (V8 m ρ) c)
  have e0 : W8 m ρ c (Proc.devRef .tc main_v83) = U137 m' c (Proc.devRef .tc R.main_v91) := h3_agg (W7 m ρ c) (U97 m' c) h hx
  have e1 := h3_mean (W7 m ρ c) (U97 m' c) h hx
  have e2 := h3_invstd (W7 m ρ c) (U97 m' c) h hx
  have e3 := h3_gamma (W7 m ρ c) (U97 m' c) h
  have e4 := h3_beta (W7 m ρ c) (U97 m' c) h
  have ec : U137 m' c (Proc.devRef .tc R.main_v104) = subf (F := Ideal) (φ := .f32) (U137 m' c (Proc.devRef .tc R.main_v91)) (broadcastInDim R.S50000x128 ![0, 1] R.bcast_S1x128_S50000x128_0_1 (broadcastInDim R.S1x128 ![1] R.bcast_S128_S1x128_1 (U137 m' c (Proc.devRef .tc R.main_v94)))) := h3_centered (U97 m' c)
  have eR : U149 m' c (Proc.devRef .tc R.main_v117) = maximumf (F := Ideal) (φ := .f32) (s := R.S50000x128)
        (addf (F := Ideal) (φ := .f32) (s := R.S50000x128)
          (mulf (F := Ideal) (φ := .f32) (s := R.S50000x128)
            (mulf (F := Ideal) (φ := .f32) (s := R.S50000x128) (U137 m' c (Proc.devRef .tc R.main_v104)) (broadcastInDim R.S50000x128 ![0, 1] R.bcast_S1x128_S50000x128_0_1 (broadcastInDim R.S1x128 ![1] R.bcast_S128_S1x128_1 (U137 m' c (Proc.devRef .tc R.main_v107)))))
            (broadcastInDim R.S50000x128 ![0, 1] R.bcast_S1x128_S50000x128_0_1 (broadcastInDim R.S1x128 ![1] R.bcast_S128_S1x128_1 (U137 m' c (Proc.devRef .tc R.main_arg10)))))
          (broadcastInDim R.S50000x128 ![0, 1] R.bcast_S1x128_S50000x128_0_1 (broadcastInDim R.S1x128 ![1] R.bcast_S128_S1x128_1 (U137 m' c (Proc.devRef .tc R.main_arg11)))))
        (broadcastInDim R.S50000x128 ![] R.bcast_S_S50000x128 (constant (F := Ideal) R.S_ .f32 0x00000000#32)) := r_norm2 (U137 m' c)
  have five : ∀ (a a' : S50000x128.Idx → EReal) (b b' d d' e e' f f' : S1x128.Idx → EReal), a = a' → b = b' → d = d' → e = e' → f = f' →
      Cert.Gcn.normRelu (M := 50000) (N := 128) a b d e f = Cert.Gcn.normRelu (M := 50000) (N := 128) a' b' d' e' f' := by
    intro a a' b b' d d' e e' f f' h0 h1 h2 h3 h4
    rw [h0, h1, h2, h3, h4]
  refine eK.trans (Eq.trans (five _ _ _ _ _ _ _ _ _ _ e0 e1 e2 e3 e4) (Eq.trans ?_ eR.symm))
  rw [ec]
  exact (Cert.ReferenceIdeal.Alg.norm_chain (U137 m' c (Proc.devRef .tc R.main_v91)) (U137 m' c (Proc.devRef .tc R.main_v94)) (U137 m' c (Proc.devRef .tc R.main_v107)) (U137 m' c (Proc.devRef .tc R.main_arg10)) (U137 m' c (Proc.devRef .tc R.main_arg11))
    R.bcast_S128_S1x128_1 R.bcast_S1x128_S50000x128_0_1 R.bcast_S_S50000x128
    shapeCasts_S128_S1x128 shapeCasts_S128_S1x128 shapeCasts_S128_S1x128 shapeCasts_S128_S1x128).symm

/-- The third projection's output is the reference's third matrix product. -/
theorem x150 (h : Inv (W9 m ρ c) (U149 m' c)) (hx : W9 m ρ c (Proc.devRef .tc main_v101) = U149 m' c (Proc.devRef .tc R.main_v117)) :
    W10 m ρ c (Proc.devRef .tc main_v102) = U150 m' c (Proc.devRef .tc R.main_v118) := by
  have eK := (W10_arr m ρ c 2).trans (Proj4.final (V9 m ρ) c)
  have eR : U150 m' c (Proc.devRef .tc R.main_v118) = rowsTimes (M := 50000) (K := 128) (N := 40) (U149 m' c (Proc.devRef .tc R.main_v117)) (U149 m' c (Proc.devRef .tc R.main_arg6)) :=
    (r_dot3 (U149 m' c)).trans (Cert.ReferenceIdeal.Alg.dot40_eq _ _)
  refine eK.trans (Eq.trans ?_ eR.symm)
  rw [← hx, ← h.a6]

/-! ## The result -/

/-- From memories that agree on the arguments, the kernel program's result buffer ends at what the reference's does. -/
theorem result_eq (hag : Agree m m' c) :
    W11 m ρ c (Proc.devRef .tc main_v118) = after rops (launchContents m' c) (Proc.devRef .tc R.main_v134) := by
  have i43 := inv43 m ρ m' c hag
  have i44 : Inv (W4 m ρ c) (U44 m' c) := inv_r43 _ _ (k_r0 m ρ c _ i43)
  have v44 := x44 m ρ m' c i43
  have i84 : Inv (W5 m ρ c) (U84 m' c) := inv_h1 _ _ i44
  have i96 : Inv (W6 m ρ c) (U96 m' c) := inv_r84 _ _ (k_r1 m ρ c _ i84)
  have v96 := x96 m ρ m' c i44 v44
  have i97 : Inv (W7 m ρ c) (U97 m' c) := inv_r96 _ _ (k_r2 m ρ c _ i96)
  have v97 := x97 m ρ m' c i96 v96
  have i137 : Inv (W8 m ρ c) (U137 m' c) := inv_h3 _ _ i97
  have i149 : Inv (W9 m ρ c) (U149 m' c) := inv_r137 _ _ (k_r3 m ρ c _ i137)
  have v149 := x149 m ρ m' c i97 v97
  have i150 : Inv (W10 m ρ c) (U150 m' c) := inv_r149 _ _ (k_r4 m ρ c _ i149)
  have v150 := x150 m ρ m' c i149 v149
  rw [after_rops]
  exact h5_out (W10 m ρ c) (U150 m' c) i150 v150

end Cert.Sim

end
-- ==== Proof.lean ====
/-
  The certificate's five claims for the three-layer graph convolution: a kernel program of three projection launches
  and two normalisation launches among shared host operations, against the plain reference.

  * The three frames. The two kernel programs' frames are the generated ones. The reference has no launch: its run is
    the fold of its 169 host operations, none of which writes an argument.
  * The idealization rewrote nothing, so there is nothing to preserve.
  * Equal results on the extended reals. Both idealized programs run; the kernel program's result buffer ends at the
    value of the fold through its eleven segments, the reference's at the fold of its operations, and from memories that
    agree on the arguments the two folds agree at the result (`Cert.Sim.result_eq`): the host stretches are the same
    operations on both sides, a projection launch leaves the matrix product (the sum over the shared axis of row entry
    times column entry, block by block of rows), and a normalisation launch leaves
    max((h − mean) · invstd · γ + β, 0) entry by entry, which is the reference's chain of broadcasts. No law of the
    extended reals beyond reading both sides at an index is needed, so finiteness of the inputs is never used.
-/
import proofs.«162351_j36601711296804_1_alg».proof.Defs
import proofs.«162351_j36601711296804_1_alg».proof.Proof.Gen.Kernel
import proofs.«162351_j36601711296804_1_alg».proof.Proof.Gen.Kernel.Skeleton
import proofs.«162351_j36601711296804_1_alg».proof.Proof.Gen.Kernel.Launch
import proofs.«162351_j36601711296804_1_alg».proof.Proof.Gen.Kernel.Points
import proofs.«162351_j36601711296804_1_alg».proof.Proof.Gen.Kernel.Frame
import proofs.«162351_j36601711296804_1_alg».proof.Proof.Gen.KernelIdeal
import proofs.«162351_j36601711296804_1_alg».proof.Proof.Gen.KernelIdeal.Skeleton
import proofs.«162351_j36601711296804_1_alg».proof.Proof.Gen.KernelIdeal.Launch
import proofs.«162351_j36601711296804_1_alg».proof.Proof.Gen.KernelIdeal.Points
import proofs.«162351_j36601711296804_1_alg».proof.Proof.Gen.KernelIdeal.Frame
import proofs.«162351_j36601711296804_1_alg».proof.Proof.Gen.ReferenceIdeal
import proofs.«162351_j36601711296804_1_alg».proof.Proof.Gen.Pre_finite_inputs
import proofs.«162351_j36601711296804_1_alg».proof.Proof.KernelRun
import proofs.«162351_j36601711296804_1_alg».proof.Proof.RefFrame
import proofs.«162351_j36601711296804_1_alg».proof.Proof.SimRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and writes no argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- Nothing was rewritten by the idealization. -/
theorem preserves : Cert.preserves_Kernel_KernelIdeal := trivial

/-- From memories that agree on the arguments both idealized programs run and end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W11 m ρ c (Proc.devRef .tc Cert.KernelIdeal.main_v118),
    fun c => Cert.KernelIdeal.Gen.W11 m ρ c (Proc.devRef .tc Cert.KernelIdeal.main_v118), ?_, ?_⟩
  · exact (θ_run Cert.KernelIdeal.defs _ _).mono (fun _ h c => ⟨(h c).1, (h c).1, (h c).2⟩) (Cert.KernelIdeal.Hand.run_result m ρ)
  · refine (θ_run Cert.ReferenceIdeal.defs _ _).mono (fun _ h c => ?_) (Cert.ReferenceIdeal.Hand.run m' ρ')
    have e := (Cert.Sim.result_eq m ρ m' c (hagree c)).symm
    exact ⟨(h c).1.trans e, (h c).1.trans e, (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
